-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8x128 : Shape := ⟨3, ![2048, 8, 128]⟩
abbrev S2048x2048 : Shape := ⟨2, ![2048, 2048]⟩
abbrev S128x128 : Shape := ⟨2, ![128, 128]⟩
abbrev S128 : Shape := ⟨1, ![128]⟩
abbrev S_ : Shape := ⟨0, ![]⟩

class Facts : Prop where
  bcast_S_S2048x8x128 : S_.BroadcastsInDim S2048x8x128 (![] : Fin 0 → Fin S2048x8x128.rank)
  reducesTo_S2048x8x128_S_d0_1_2 : S2048x8x128.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2048x8x128 .f32) (main_arg1 : FVec F S2048x2048 .f32) (main_arg2 : FVec F S128x128 .f32) (main_arg3 : FVec F S128 .f32) : IVec S_ 1 :=
  let main_v0 : FVec F S2048x8x128 .f32 := Host.absf main_arg0
  let main_cst : FVec F S_ .f32 := constant S_ .f32 0x7F800000#32
  let main_v1 : FVec F S2048x8x128 .f32 := broadcastInDim S2048x8x128 ![] bcast_S_S2048x8x128 main_cst
  let main_v2 : IVec S2048x8x128 1 := cmpf .olt main_v0 main_v1
  let main_c : IVec S_ 1 := constantI S_ 1 1#1
  let main_v3 : IVec S_ 1 := (fun x v => Host.reduce IntOp.andi x v reducesTo_S2048x8x128_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S2048x8x128 : Shape := ⟨3, ![2048, 8, 128]⟩
abbrev S2048x2048 : Shape := ⟨2, ![2048, 2048]⟩
abbrev S128x128 : Shape := ⟨2, ![128, 128]⟩
abbrev S128 : Shape := ⟨1, ![128]⟩
abbrev S2048x1024 : Shape := ⟨2, ![2048, 1024]⟩
abbrev S8x8 : Shape := ⟨2, ![8, 8]⟩
abbrev S_ : Shape := ⟨0, ![]⟩
abbrev S8x1x8x1 : Shape := ⟨4, ![8, 1, 8, 1]⟩
abbrev S1x128x1x128 : Shape := ⟨4, ![1, 128, 1, 128]⟩
abbrev S8x128x8x128 : Shape := ⟨4, ![8, 128, 8, 128]⟩
abbrev S1024x1024 : Shape := ⟨2, ![1024, 1024]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S256x2048 : Shape := ⟨2, ![256, 2048]⟩
abbrev S256x1024 : Shape := ⟨2, ![256, 1024]⟩

abbrev nBuf : Space → Nat
  | .hbm => 26
  | .vmem => 7
  | .smem => 0
  | _ => 0

abbrev bufTy : (tb : Table) → Fin (tcTables nBuf tb) → BufTy
  | .hbm, ⟨0, _⟩ => ⟨S2048x8x128, .f32⟩
  | .hbm, ⟨1, _⟩ => ⟨S2048x2048, .f32⟩
  | .hbm, ⟨2, _⟩ => ⟨S128x128, .f32⟩
  | .hbm, ⟨3, _⟩ => ⟨S128, .f32⟩
  | .hbm, ⟨4, _⟩ => ⟨S2048x1024, .f32⟩
  | .hbm, ⟨5, _⟩ => ⟨S2048x1024, .bf16⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S8x1x8x1, .f32⟩
  | .hbm, ⟨14, _⟩ => ⟨S1x128x1x128, .f32⟩
  | .hbm, ⟨15, _⟩ => ⟨S8x128x8x128, .f32⟩
  | .hbm, ⟨16, _⟩ => ⟨S8x128x8x128, .f32⟩
  | .hbm, ⟨17, _⟩ => ⟨S8x128x8x128, .f32⟩
  | .hbm, ⟨18, _⟩ => ⟨S1024x1024, .f32⟩
  | .hbm, ⟨19, _⟩ => ⟨S1024x1024, .bf16⟩
  | .hbm, ⟨20, _⟩ => ⟨S1x128, .f32⟩
  | .hbm, ⟨21, _⟩ => ⟨S8x128, .f32⟩
  | .hbm, ⟨22, _⟩ => ⟨S1024, .f32⟩
  | .hbm, ⟨23, _⟩ => ⟨S1x1024, .f32⟩
  | .hbm, ⟨24, _⟩ => ⟨S2048x1024, .f32⟩
  | .hbm, ⟨25, _⟩ => ⟨S2048x8x128, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S1024x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048x8x128_S2048x1024 : S2048x8x128.ShapeCasts S2048x1024
  bitsLt_bf16_f32 : FTy.bits .bf16 < FTy.bits .f32
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S128x128_S1x128x1x128_1_3 : S128x128.BroadcastsInDim S1x128x1x128 (![1, 3] : Fin 2 → Fin S1x128x1x128.rank)
  bcast_S8x1x8x1_S8x128x8x128_0_1_2_3 : S8x1x8x1.BroadcastsInDim S8x128x8x128 (![0, 1, 2, 3] : Fin 4 → Fin S8x128x8x128.rank)
  bcast_S1x128x1x128_S8x128x8x128_0_1_2_3 : S1x128x1x128.BroadcastsInDim S8x128x8x128 (![0, 1, 2, 3] : Fin 4 → Fin S8x128x8x128.rank)
  shapeCasts_S8x128x8x128_S1024x1024 : S8x128x8x128.ShapeCasts S1024x1024
  shapeCasts_S128_S1x128 : S128.ShapeCasts S1x128
  bcast_S1x128_S8x128_0_1 : S1x128.BroadcastsInDim S8x128 (![0, 1] : Fin 2 → Fin S8x128.rank)
  shapeCasts_S8x128_S1024 : S8x128.ShapeCasts S1024
  shapeCasts_S1024_S1x1024 : S1024.ShapeCasts S1x1024
  inb_S256x2048_S256x2048_0_0 : ∀ a, (![0, 0] : Fin 2 → Nat) a + S256x2048.size a ≤ S256x2048.size a
  h_S256x2048 : 0 < S256x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S2048x1024_S2048x8x128 : S2048x1024.ShapeCasts S2048x8x128
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .f32 = 32 ∨ (Rect.block (s := S2048x1024) S256x1024.size (cc0_transform_4 i) (hinb0_4 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x8x128 : Shape := ⟨3, ![2048, 8, 128]⟩
abbrev S2048x2048 : Shape := ⟨2, ![2048, 2048]⟩
abbrev S128x128 : Shape := ⟨2, ![128, 128]⟩
abbrev S128 : Shape := ⟨1, ![128]⟩
abbrev S16384x128 : Shape := ⟨2, ![16384, 128]⟩
abbrev S512x128 : Shape := ⟨2, ![512, 128]⟩
abbrev S2048x1024 : Shape := ⟨2, ![2048, 1024]⟩
abbrev S1x128 : Shape := ⟨2, ![1, 128]⟩
abbrev S8x128 : Shape := ⟨2, ![8, 128]⟩
abbrev S1024 : Shape := ⟨1, ![1024]⟩
abbrev S1x1024 : Shape := ⟨2, ![1, 1024]⟩
abbrev S256x512 : Shape := ⟨2, ![256, 512]⟩
abbrev S512x512 : Shape := ⟨2, ![512, 512]⟩
abbrev S1x512 : Shape := ⟨2, ![1, 512]⟩

abbrev nBuf : Space → Nat
  | .hbm => 13
  | .vmem => 14
  | .smem => 0
  | _ => 0

abbrev bufTy : (tb : Table) → Fin (tcTables nBuf tb) → BufTy
  | .hbm, ⟨0, _⟩ => ⟨S2048x8x128, .f32⟩
  | .hbm, ⟨1, _⟩ => ⟨S2048x2048, .f32⟩
  | .hbm, ⟨2, _⟩ => ⟨S128x128, .f32⟩
  | .hbm, ⟨3, _⟩ => ⟨S128, .f32⟩
  | .hbm, ⟨4, _⟩ => ⟨S16384x128, .f32⟩
  | .hbm, ⟨5, _⟩ => ⟨S16384x128, .f32⟩
  | .hbm, ⟨6, _⟩ => ⟨S2048x1024, .f32⟩
  | .hbm, ⟨7, _⟩ => ⟨S1x128, .f32⟩
  | .hbm, ⟨8, _⟩ => ⟨S8x128, .f32⟩
  | .hbm, ⟨9, _⟩ => ⟨S1024, .f32⟩
  | .hbm, ⟨10, _⟩ => ⟨S1x1024, .f32⟩
  | .hbm, ⟨11, _⟩ => ⟨S2048x1024, .f32⟩
  | .hbm, ⟨12, _⟩ => ⟨S2048x8x128, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S512x128, .f32⟩
  | .local _ .vmem, ⟨4, _⟩ => ⟨S512x128, .f32⟩
  | .local _ .vmem, ⟨5, _⟩ => ⟨S256x512, .f32⟩
  | .local _ .vmem, ⟨6, _⟩ => ⟨S256x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S2048x8x128_S16384x128 : S2048x8x128.ShapeCasts S16384x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S16384x128_S2048x1024 : S16384x128.ShapeCasts S2048x1024
  shapeCasts_S128_S1x128 : S128.ShapeCasts S1x128
  bcast_S1x128_S8x128_0_1 : S1x128.BroadcastsInDim S8x128 (![0, 1] : Fin 2 → Fin S8x128.rank)
  shapeCasts_S8x128_S1024 : S8x128.ShapeCasts S1024
  shapeCasts_S1024_S1x1024 : S1024.ShapeCasts S1x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S2048x1024_S2048x8x128 : S2048x1024.ShapeCasts S2048x8x128
  dot_S512x128_S128x128_S512x128_1_0_0_1_n_n_wf : DotDims.WF S512x128 S128x128 S512x128 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S2048x2048.size a
  hwx1_0 : ∀ i : grid1.Coords, EltTy.bits .f32 = 32 ∨ (Rect.block (s := S2048x2048) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S2048x1024.size a
  hwx1_1 : ∀ i : grid1.Coords, EltTy.bits .f32 = 32 ∨ (Rect.block (s := S2048x1024) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S2048x1024.size a
  hwx1_3 : ∀ i : grid1.Coords, EltTy.bits .f32 = 32 ∨ (Rect.block (s := S2048x1024) S256x512.size (cc1_transform_3 i) (hinb1_3 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The graph convolution, as one function of the four argument arrays, in its two arrangements.

  x : [2048, 8, 128] (node, slot, feature), adj : [2048, 2048], w : [128, 128], b : [128]. With
      sup k s f = Σ_g x[k, s, g] · w[g, f]                         (the support of node k, slot s)
  the result at (n, s, f) is Σ_k adj[n, k] · sup k s f + b[f].

  * `refAt`: the neighbour axis k cut into four consecutive blocks of 512, the four block sums added in order, then b[f].
  * `kerAt`: first t[n, c] = Σ_k adj[n, k] · x[k, c / 128, c % 128] over the flattened (slot, feature) axis c < 1024,
    then the product with the block-diagonal matrix whose (c, (s, f)) entry is δ(c / 128, s) · w[c % 128, f], then b[f].
  Both are stated over explicit coordinates; `refArr` / `kerArr` are the arrays.
-/
import Idealize.ShloMosaic.Lib.ValueIdx
import Idealize.ShloMosaic.PureOps.Ideal

noncomputable section

namespace Cert.GcnSpec

open Idealize.ShloMosaic Idealize.ShloMosaic.ValueIdx

abbrev SX : Shape := ⟨3, ![2048, 8, 128]⟩
abbrev SA : Shape := ⟨2, ![2048, 2048]⟩
abbrev SW : Shape := ⟨2, ![128, 128]⟩
abbrev SB : Shape := ⟨1, ![128]⟩

/-- The slot of position c of the flattened (slot, feature) axis. -/
def slotOf (c : Fin 1024) : Fin 8 := ⟨c.val / 128, by have := c.isLt; omega⟩
/-- The feature of position c of the flattened (slot, feature) axis. -/
def featOf (c : Fin 1024) : Fin 128 := ⟨c.val % 128, by omega⟩

/-- Kronecker's delta on slots. -/
def delta (a b : Fin 8) : EReal := if a = b then 1 else 0

/-- Neighbour 512·K + kk of block K. -/
def nbr (K : Fin 4) (kk : Fin 512) : Fin 2048 := ⟨K.val * 512 + kk.val, by have := K.isLt; have := kk.isLt; omega⟩

variable (x : FVec Ideal SX .f32) (adj : FVec Ideal SA .f32) (w : FVec Ideal SW .f32) (b : FVec Ideal SB .f32)

/-- The support of node k in slot s at feature f. -/
def sup (k : Fin 2048) (s : Fin 8) (f : Fin 128) : EReal := ∑ g : Fin 128, x (ix3 k s g) * w (ix2 g f)

/-- Block K of the neighbour sum. -/
def refBlock (n : Fin 2048) (s : Fin 8) (f : Fin 128) (K : Fin 4) : EReal :=
  ∑ kk : Fin 512, adj (ix2 n (nbr K kk)) * sup x w (nbr K kk) s f

/-- The reference's arrangement at (n, s, f). -/
def refAt (n : Fin 2048) (s : Fin 8) (f : Fin 128) : EReal :=
  (((refBlock x adj w n s f 0 + refBlock x adj w n s f 1) + refBlock x adj w n s f 2) + refBlock x adj w n s f 3) + b (ix1 f)

/-- The aggregated features t[n, c]. -/
def agg (n : Fin 2048) (c : Fin 1024) : EReal := ∑ k : Fin 2048, adj (ix2 n k) * x (ix3 k (slotOf c) (featOf c))

/-- The kernel's arrangement at (n, s, f). -/
def kerAt (n : Fin 2048) (s : Fin 8) (f : Fin 128) : EReal :=
  (∑ c : Fin 1024, agg x adj n c * (delta (slotOf c) s * w (ix2 (featOf c) f))) + b (ix1 f)

/-- The reference's result array. -/
def refArr : FVec Ideal SX .f32 := fun i => refAt x adj w b (i 0) (i 1) (i 2)
/-- The kernel's result array. -/
def kerArr : FVec Ideal SX .f32 := fun i => kerAt x adj w b (i 0) (i 1) (i 2)

end Cert.GcnSpec

end
-- ==== Proof.KerHostTerms.lean ====
/-
  The arrays the host prepares for the region, each as one function of an argument array and read entry by entry.

  Before the region the program flattens the node features x : [2048, 8, 128] to [2048, 1024] (position c of the flat
  axis is slot c / 128, feature c % 128), builds the block-diagonal matrix kron(I₈, w) : [1024, 1024] — the 8 × 8
  identity as the comparison of a row counter with a column counter, converted to a number, spread against w over a
  four-axis array and reshaped — and repeats the bias once per slot as one row of 1024 positions. A change of float
  format is the identity over the extended reals. Entry by entry:
      xflat x (k, c)  = x (k, c / 128, c % 128)
      wbd w (c, q)    = δ(c / 128, q / 128) · w (c % 128, q % 128)
      brow b (0, q)   = b (q % 128).
  Each reshape is read by the row-major position of the two indices, each broadcast by the axes it copies.
-/
import proofs.«121691_g2000406713105512_pallasbulk_660_2_alg».proof.Proof.Gen.KernelIdeal
import proofs.«121691_g2000406713105512_pallasbulk_660_2_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Idealize.ShloMosaic
open Idealize.ShloMosaic.ValueIdx
open Cert.GcnSpec (slotOf featOf delta)

/-- The node features with the (slot, feature) axes flattened to one axis of 1024 positions. -/
def xflat (x : FVec Ideal S2048x8x128 .f32) : FVec Ideal S2048x1024 .bf16 :=
  truncf .bf16 (shapeCast S2048x1024 x shapeCasts_S2048x8x128_S2048x1024) bitsLt_bf16_f32

/-- The 8 × 8 identity matrix, as the comparison of a row counter with a column counter. -/
def eye8 : FVec Ideal S8x8 .f32 :=
  uitofp .f32 (cmpi .eq (addi (iotaInDim S8x8 32 0) (broadcastInDim S8x8 ![] bcast_S_S8x8 (constantI S_ 32 0#32))) (iotaInDim S8x8 32 1))

/-- The block-diagonal matrix with eight copies of w on its diagonal: the Kronecker product of the identity with w. -/
def wbd (w : FVec Ideal S128x128 .f32) : FVec Ideal S1024x1024 .bf16 :=
  truncf .bf16 (shapeCast S1024x1024
    (mulf (broadcastInDim S8x128x8x128 ![0, 1, 2, 3] bcast_S8x1x8x1_S8x128x8x128_0_1_2_3 (broadcastInDim S8x1x8x1 ![0, 2] bcast_S8x8_S8x1x8x1_0_2 eye8))
          (broadcastInDim S8x128x8x128 ![0, 1, 2, 3] bcast_S1x128x1x128_S8x128x8x128_0_1_2_3 (broadcastInDim S1x128x1x128 ![1, 3] bcast_S128x128_S1x128x1x128_1_3 w)))
    shapeCasts_S8x128x8x128_S1024x1024) bitsLt_bf16_f32

/-- The bias repeated once per slot, as one row of 1024 positions. -/
def brow (b : FVec Ideal S128 .f32) : FVec Ideal S1x1024 .f32 :=
  shapeCast S1x1024 (shapeCast S1024 (broadcastInDim S8x128 ![0, 1] bcast_S1x128_S8x128_0_1 (shapeCast S1x128 b shapeCasts_S128_S1x128)) shapeCasts_S8x128_S1024) shapeCasts_S1024_S1x1024

/-- Position c of the flattened axis is (slot c / 128, feature c % 128). -/
theorem xflat_apply (x : FVec Ideal S2048x8x128 .f32) (k : Fin 2048) (c : Fin 1024) :
    xflat x (ix2 k c) = x (ix3 k (slotOf c) (featOf c)) := by
  unfold xflat
  rw [truncf_apply]
  refine shapeCast_apply _ _ (ix2 k c) (ix3 k (slotOf c) (featOf c)) ?_
  rw [Shape.rowMajor_val_two, Shape.rowMajor_val_three]
  show (k.val * 8 + c.val / 128) * 128 + c.val % 128 = k.val * 1024 + c.val
  omega

/-- The comparison bit of two counters below 8, as a number: 1 when they are equal, 0 otherwise. -/
theorem eye_bit : ∀ a b : Fin 8, IntOp.cmpi .eq (IntOp.addi (BitVec.ofNat 32 a.val) 0#32) (BitVec.ofNat 32 b.val) = if a = b then 1#1 else 0#1 := by
  decide

theorem eye8_apply (a b : Fin 8) : eye8 (ix2 a b) = delta a b := by
  show FloatOps.uitofp (F := Ideal) .f32 (IntOp.cmpi .eq (IntOp.addi (BitVec.ofNat 32 a.val) 0#32) (BitVec.ofNat 32 b.val)) = _
  rw [eye_bit a b]
  unfold delta
  split
  · show (((1#1 : BitVec 1).toNat : ℝ) : EReal) = 1
    simp
  · show (((0#1 : BitVec 1).toNat : ℝ) : EReal) = 0
    simp

/-- Entry (c, q) of the block-diagonal matrix: w at the two features when c and q lie in the same slot, 0 otherwise. -/
theorem wbd_apply (w : FVec Ideal S128x128 .f32) (c q : Fin 1024) :
    wbd w (ix2 c q) = delta (slotOf c) (slotOf q) * w (ix2 (featOf c) (featOf q)) := by
  unfold wbd
  rw [truncf_apply]
  refine (shapeCast_apply _ _ (ix2 c q) (ix4 (slotOf c) (featOf c) (slotOf q) (featOf q)) ?_).trans ?_
  · rw [Shape.rowMajor_val_two, Shape.rowMajor_val_four]
    show (((c.val / 128) * 128 + c.val % 128) * 8 + q.val / 128) * 128 + q.val % 128 = c.val * 1024 + q.val
    omega
  rw [mulf_apply]
  congr 1
  · refine (broadcastInDim_apply _ _ _ (ix4 (slotOf c) (featOf c) (slotOf q) (featOf q)) (ix4 (slotOf c) (0 : Fin 1) (slotOf q) (0 : Fin 1)) ?_).trans ?_
    · intro a
      match a with
      | ⟨0, _⟩ => rfl
      | ⟨1, _⟩ => rfl
      | ⟨2, _⟩ => rfl
      | ⟨3, _⟩ => rfl
    refine (broadcastInDim_apply _ _ _ (ix4 (slotOf c) (0 : Fin 1) (slotOf q) (0 : Fin 1)) (ix2 (slotOf c) (slotOf q)) ?_).trans ?_
    · intro a
      match a with
      | ⟨0, _⟩ => rfl
      | ⟨1, _⟩ => rfl
    exact eye8_apply _ _
  · refine (broadcastInDim_apply _ _ _ (ix4 (slotOf c) (featOf c) (slotOf q) (featOf q)) (ix4 (0 : Fin 1) (featOf c) (0 : Fin 1) (featOf q)) ?_).trans ?_
    · intro a
      match a with
      | ⟨0, _⟩ => rfl
      | ⟨1, _⟩ => rfl
      | ⟨2, _⟩ => rfl
      | ⟨3, _⟩ => rfl
    refine broadcastInDim_apply _ _ _ (ix4 (0 : Fin 1) (featOf c) (0 : Fin 1) (featOf q)) (ix2 (featOf c) (featOf q)) ?_
    intro a
    match a with
    | ⟨0, _⟩ => rfl
    | ⟨1, _⟩ => rfl

/-- Position q of the bias row is the bias at feature q % 128. -/
theorem brow_apply (b : FVec Ideal S128 .f32) (q : Fin 1024) :
    brow b (ix2 (0 : Fin 1) q) = b (ix1 (featOf q)) := by
  unfold brow
  refine (shapeCast_apply _ _ (ix2 (0 : Fin 1) q) (ix1 q) ?_).trans ?_
  · rw [Shape.rowMajor_val_two, Shape.rowMajor_val_one]
    show q.val = 0 * 1024 + q.val
    omega
  refine (shapeCast_apply _ _ (ix1 q) (ix2 (slotOf q) (featOf q)) ?_).trans ?_
  · rw [Shape.rowMajor_val_two, Shape.rowMajor_val_one]
    show (q.val / 128) * 128 + q.val % 128 = q.val
    omega
  refine (broadcastInDim_apply _ _ _ (ix2 (slotOf q) (featOf q)) (ix2 (0 : Fin 1) (featOf q)) ?_).trans ?_
  · intro a
    match a with
    | ⟨0, _⟩ => rfl
    | ⟨1, _⟩ => rfl
  refine shapeCast_apply _ _ (ix2 (0 : Fin 1) (featOf q)) (ix1 (featOf q)) ?_
  rw [Shape.rowMajor_val_two, Shape.rowMajor_val_one]
  show (q.val % 128) = 0 * 128 + q.val % 128
  omega

end Cert.KernelIdeal.KValue

end
-- ==== Proof.KerHost.lean ====
/-
  What the region finds in the three arrays the host prepared.

  When the region is entered, its second operand holds the flattened node features, its third the block-diagonal
  matrix kron(I₈, w), its fourth the bias repeated once per slot: each is the composition of the host operations that
  wrote it, applied to the argument array as launched.
-/
import proofs.«121691_g2000406713105512_pallasbulk_660_2_alg».proof.Proof.Gen.KernelIdeal.Frame
import proofs.«121691_g2000406713105512_pallasbulk_660_2_alg».proof.Proof.KerHostTerms
import Idealize.ShloMosaic.Lib.StableHlo.Run

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ)

/-- The region's second operand is the flattened node features. -/
theorem V_v1 (c : Dev nD) : (V m c main_v1 : S2048x1024.Idx → EReal) = xflat (m ((c.tc : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- The region's third operand is the block-diagonal matrix of the weights. -/
theorem V_v9 (c : Dev nD) : (V m c main_v9 : S1024x1024.Idx → EReal) = wbd (m ((c.tc : Thread nD τ).loc main_arg2)) := by
  dsimp only [Gen.V, Gen.V0]
  simp only [Gen.hostOps0, Gen.hostOps0_1, Gen.hostOps0_2, List.flatten_cons, List.flatten_nil, List.append_nil, List.cons_append, List.nil_append]
  after_results
  rfl

/-- The region's fourth operand is the bias repeated once per slot. -/
theorem V_v13 (c : Dev nD) : (V m c main_v13 : S1x1024.Idx → EReal) = brow (m ((c.tc : Thread nD τ).loc main_arg3)) := by
  dsimp only [Gen.V, Gen.V0]
  simp only [Gen.hostOps0, Gen.hostOps0_1, Gen.hostOps0_2, List.flatten_cons, List.flatten_nil, List.append_nil, List.cons_append, List.nil_append]
  after_results
  rfl

end Cert.KernelIdeal.KValue

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«121691_g2000406713105512_pallasbulk_660_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.KerPayload.lean ====
/-
  What the kernel body stores, entry by entry.

  The body loads a block of 256 adjacency rows a, the flattened features xf : [2048, 1024], the block-diagonal matrix
  wb : [1024, 1024] and the bias row br : [1, 1024], and stores (a · xf) · wb + br. Both products start from the zero
  splat, so over the extended reals each is the plain sum over its contracted axis (0 + s = s), and a change of float
  format is the identity. Hence at row p, column q of the block
      Σ_c (Σ_k a (p, k) · xf (k, c)) · wb (c, q) + br (0, q).
  When the four loaded arrays are, entry by entry, row n of the adjacency, the flattened x, kron(I₈, w) and the repeated
  bias, this is the specification's kernel arrangement at node n, slot q / 128, feature q % 128.
-/
import proofs.«121691_g2000406713105512_pallasbulk_660_2_alg».proof.Proof.Gen.KernelIdeal.Skeleton
import proofs.«121691_g2000406713105512_pallasbulk_660_2_alg».proof.Proof.LibDotForms
import proofs.«121691_g2000406713105512_pallasbulk_660_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Cert.KernelIdeal Cert.KernelIdeal.Gen Idealize.ShloMosaic
open Idealize.ShloMosaic.ValueIdx

/-- The first product's dimension numbers are those of a plain [256, 2048] by [2048, 1024] product. -/
theorem dims_agg : dot_S256x2048_S2048x1024_S256x1024_1_0_0_1_n_n = DotDims.plain 256 2048 1024 := rfl
/-- The second product's dimension numbers are those of a plain [256, 1024] by [1024, 1024] product. -/
theorem dims_mix : dot_S256x1024_S1024x1024_S256x1024_1_0_0_1_n_n = DotDims.plain 256 1024 1024 := rfl

/-- What the body stores at row p, column q of its block: the block of adjacency rows times the flattened features,
    that product times the block-diagonal matrix, plus the bias row. Both products start from the zero splat, so each
    is a plain sum over its contracted axis. -/
theorem pay_apply (x0 : Vec Ideal S256x2048 .f32) (x1 : Vec Ideal S2048x1024 .bf16) (x2 : Vec Ideal S1024x1024 .bf16) (x3 : Vec Ideal S1x1024 .f32)
    (p : Fin 256) (q : Fin 1024) :
    k0_pay1 x0 x1 x2 x3 (ix2 p q)
      = (∑ c : Fin 1024, (∑ k : Fin 2048, x0 (ix2 p k) * x1 (ix2 k c)) * x2 (ix2 c q)) + x3 (ix2 (0 : Fin 1) q) := by
  unfold k0_pay1
  simp only [shapeCast_self]
  rw [addf_apply, dims_agg, dims_mix]
  refine congrArg₂ (· + ·) ?_ ?_
  · refine (Cert.LibDotForms.matmul_plain_prec (φ₁ := .bf16) (φ₂ := .bf16) none _ _ p q).trans ?_
    refine Finset.sum_congr rfl fun c _ => ?_
    rw [truncf_apply]
    refine congrArg (· * x2 (ix2 c q)) ?_
    refine (Cert.LibDotForms.matmul_plain_prec (φ₁ := .bf16) (φ₂ := .bf16) none _ _ p c).trans ?_
    refine Finset.sum_congr rfl fun k _ => ?_
    rw [truncf_apply]
  · exact broadcastTo_1b_ab_apply _ _ p q

open Cert.GcnSpec (slotOf featOf delta SX SA SW SB)

/-- The stored entry as the specification's kernel arrangement, from what the four loaded arrays hold entry by entry:
    row p of the adjacency block is row n of the adjacency, the features are flattened, the matrix is kron(I₈, w), the
    row is the repeated bias. The two sides are then the same sums term by term. -/
theorem pay_kerAt (X : FVec Ideal SX .f32) (A : FVec Ideal SA .f32) (W : FVec Ideal SW .f32) (B : FVec Ideal SB .f32)
    (x0 : Vec Ideal S256x2048 .f32) (x1 : Vec Ideal S2048x1024 .bf16) (x2 : Vec Ideal S1024x1024 .bf16) (x3 : Vec Ideal S1x1024 .f32)
    (n : Fin 2048) (p : Fin 256) (q : Fin 1024)
    (h0 : ∀ k : Fin 2048, x0 (ix2 p k) = A (ix2 n k))
    (h1 : ∀ (k : Fin 2048) (c : Fin 1024), x1 (ix2 k c) = X (ix3 k (slotOf c) (featOf c)))
    (h2 : ∀ c : Fin 1024, x2 (ix2 c q) = delta (slotOf c) (slotOf q) * W (ix2 (featOf c) (featOf q)))
    (h3 : x3 (ix2 (0 : Fin 1) q) = B (ix1 (featOf q))) :
    k0_pay1 x0 x1 x2 x3 (ix2 p q) = Cert.GcnSpec.kerAt X A W B n (slotOf q) (featOf q) := by
  rw [pay_apply, h3]
  unfold Cert.GcnSpec.kerAt Cert.GcnSpec.agg
  refine congrArg (· + B (ix1 (featOf q))) ?_
  refine Finset.sum_congr rfl fun c _ => ?_
  rw [h2 c]
  refine congrArg (· * (delta (slotOf c) (slotOf q) * W (ix2 (featOf c) (featOf q)))) ?_
  exact Finset.sum_congr rfl fun k _ => by rw [h0 k, h1 k c]

end Cert.KernelIdeal.KValue

end
-- ==== Proof.KerBlocks.lean ====
/-
  From blocks to the array: what the region leaves in its output array.

  The region runs the body at eight grid points. At point t the body is handed rows 256 t … 256 t + 255 of the
  adjacency and the whole of the three prepared arrays (the flattened features, the block-diagonal matrix, the bias
  row), and what it stores is written back as rows 256 t … 256 t + 255 of the output array [2048, 1024]. Entry (p, q)
  of what it stores is the kernel arrangement of the graph convolution at node 256 t + p, slot q / 128, feature q % 128
  — so every point writes a block of ONE function of the argument arrays, `outArr`, and since the eight row blocks
  cover the array (row n lies in block n / 256), the array ends holding `outArr`.
  A block's element sits in the array, on each axis, at block index × block size + its coordinate in the block.
-/
import proofs.«121691_g2000406713105512_pallasbulk_660_2_alg».proof.Proof.Gen.KernelIdeal.Frame
import proofs.«121691_g2000406713105512_pallasbulk_660_2_alg».proof.Proof.KerHost
import proofs.«121691_g2000406713105512_pallasbulk_660_2_alg».proof.Proof.KerPayload
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.GcnSpec (slotOf featOf delta)

variable (m : (ℓ : Loc nD τ sig) → Buf (Elt Ideal) ℓ)

theorem hz : (![0, 0] : Fin 2 → Nat) = fun _ => 0 := funext fun a => by fin_cases a <;> rfl

/-- The region's output array [2048, 1024] as one function of the argument arrays: entry (n, q) is the kernel
    arrangement at node n, slot q / 128, feature q % 128. -/
def outArr (c : Dev nD) : S2048x1024.Idx → EReal := fun i =>
  Cert.GcnSpec.kerAt (m ((c.tc : Thread nD τ).loc main_arg0)) (m ((c.tc : Thread nD τ).loc main_arg1))
    (m ((c.tc : Thread nD τ).loc main_arg2)) (m ((c.tc : Thread nD τ).loc main_arg3)) (i 0) (slotOf (i 1)) (featOf (i 1))

/-- The printed index maps over the eight grid points: the adjacency's and the output's blocks are at row block t,
    the three prepared arrays are taken whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the adjacency block at point t is row 256 t + p of the adjacency. -/
theorem iblk0_apply (c : Dev nD) (t : Fin cfg0.N) (p : Fin 256) (k : Fin 2048) (n : Fin 2048) (hn : n.val = t.val * 256 + p.val) :
    (iblk m c 0 t : Vec Ideal S256x2048 .f32) (ix2 p k) = (m ((c.tc : Thread nD τ).loc main_arg1) : S2048x2048.Idx → EReal) (ix2 n k) := by
  obtain ⟨e0, e1, -⟩ := idx_facts t
  unfold iblk
  rw [View.read_apply]
  show V m c main_arg1 _ = _
  rw [V_main_arg1]
  refine congrArg _ ?_
  funext a; apply Fin.ext
  match a with
  | ⟨0, _⟩ => show win0_0.index t (0 : Fin 2) * 256 + 1 * p.val = n.val; omega
  | ⟨1, _⟩ => show win0_0.index t (1 : Fin 2) * 2048 + 1 * k.val = k.val; omega

/-- The second window's block is the whole of the flattened features. -/
theorem iblk1_apply (c : Dev nD) (t : Fin cfg0.N) (k : Fin 2048) (cc : Fin 1024) :
    (iblk m c 1 t : Vec Ideal S2048x1024 .bf16) (ix2 k cc) = xflat (m ((c.tc : Thread nD τ).loc main_arg0)) (ix2 k cc) := by
  obtain ⟨-, -, e2, e3, -⟩ := idx_facts t
  unfold iblk
  rw [View.read_apply]
  show V m c main_v1 _ = _
  rw [V_v1]
  refine congrArg _ ?_
  funext a; apply Fin.ext
  match a with
  | ⟨0, _⟩ => show win0_1.index t (0 : Fin 2) * 2048 + 1 * k.val = k.val; omega
  | ⟨1, _⟩ => show win0_1.index t (1 : Fin 2) * 1024 + 1 * cc.val = cc.val; omega

/-- The third window's block is the whole block-diagonal matrix. -/
theorem iblk2_apply (c : Dev nD) (t : Fin cfg0.N) (cc q : Fin 1024) :
    (iblk m c 2 t : Vec Ideal S1024x1024 .bf16) (ix2 cc q) = wbd (m ((c.tc : Thread nD τ).loc main_arg2)) (ix2 cc q) := by
  obtain ⟨-, -, -, -, e4, e5, -⟩ := idx_facts t
  unfold iblk
  rw [View.read_apply]
  show V m c main_v9 _ = _
  rw [V_v9]
  refine congrArg _ ?_
  funext a; apply Fin.ext
  match a with
  | ⟨0, _⟩ => show win0_2.index t (0 : Fin 2) * 1024 + 1 * cc.val = cc.val; omega
  | ⟨1, _⟩ => show win0_2.index t (1 : Fin 2) * 1024 + 1 * q.val = q.val; omega

/-- The fourth window's block is the whole bias row. -/
theorem iblk3_apply (c : Dev nD) (t : Fin cfg0.N) (q : Fin 1024) :
    (iblk m c 3 t : Vec Ideal S1x1024 .f32) (ix2 (0 : Fin 1) q) = brow (m ((c.tc : Thread nD τ).loc main_arg3)) (ix2 (0 : Fin 1) q) := by
  obtain ⟨-, -, -, -, -, -, e6, e7, -⟩ := idx_facts t
  unfold iblk
  rw [View.read_apply]
  show V m c main_v13 _ = _
  rw [V_v13]
  refine congrArg _ ?_
  funext a; apply Fin.ext
  match a with
  | ⟨0, _⟩ => show win0_3.index t (0 : Fin 2) * 1 + 1 * 0 = 0; omega
  | ⟨1, _⟩ => show win0_3.index t (1 : Fin 2) * 1024 + 1 * q.val = q.val; omega

/-- What the body stores at row p, column q of its block at point t is entry (256 t + p, q) of the output array. -/
theorem stored_entry (c : Dev nD) (t : Fin cfg0.N) (p : Fin 256) (q : Fin 1024) (n : Fin 2048) (hn : n.val = t.val * 256 + p.val) :
    k0_pay1 (iblk m c 0 t) (iblk m c 1 t) (iblk m c 2 t) (iblk m c 3 t) (ix2 p q) = outArr m c (ix2 n q) :=
  pay_kerAt _ _ _ _ (iblk m c 0 t) (iblk m c 1 t) (iblk m c 2 t) (iblk m c 3 t) n p q
    (fun k => iblk0_apply m c t p k n hn)
    (fun k cc => (iblk1_apply m c t k cc).trans (xflat_apply _ k cc))
    (fun cc => (iblk2_apply m c t cc q).trans (wbd_apply _ cc q))
    ((iblk3_apply m c t q).trans (brow_apply _ q))

/-- What point t writes back is block t of the output array. -/
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero hz]
  simp only [View.ld_unit_zero (S := S256x2048) hz, View.ld_unit_zero (S := S2048x1024) hz,
    View.ld_unit_zero (S := S1024x1024) hz, View.ld_unit_zero (S := S1x1024) hz]
  obtain ⟨-, -, -, -, -, -, -, -, e8, e9⟩ := idx_facts t
  have hN : cfg0.N = 8 := N_0
  have ht := t.isLt
  refine funext fun (j : S256x1024.Idx) => ?_
  have hj0 : (j 0).val < 256 := (j 0).isLt
  have hj1 : (j 1).val < 1024 := (j 1).isLt
  obtain ⟨p, q, rfl⟩ : ∃ (p : Fin 256) (q : Fin 1024), j = ix2 p q := ⟨j 0, j 1, eq_ix2 j⟩
  rw [View.read_apply]
  have e : ((cfg0.win 4).blk t).view.emb (ix2 p q) = (ix2 (⟨t.val * 256 + p.val, by omega⟩ : Fin 2048) q : S2048x1024.Idx) := by
    funext a; apply Fin.ext
    match a with
    | ⟨0, _⟩ => show win0_4.index t (0 : Fin 2) * 256 + 1 * p.val = t.val * 256 + p.val; omega
    | ⟨1, _⟩ => show win0_4.index t (1 : Fin 2) * 1024 + 1 * q.val = q.val; omega
  rw [e]
  exact stored_entry m c t p q _ rfl

/-- An index of the output array is in point t's block iff each coordinate is in the block's range on its axis. -/
theorem mem_blk (t : Fin cfg0.N) (i : S2048x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v14).slice (win0_4.rect t)).set ↔ _
  rw [View.set_slice_whole, Rect.mem_set_unit]
  exact Iff.rfl

/-- The eight row blocks cover the output array: row n lies in the block of point n / 256. -/
theorem cover (i : S2048x1024.Idx) : ∃ t : Fin cfg0.N, (cfg0.win 4).flush t = true ∧ i ∈ ((cfg0.win 4).blk t).view.set := by
  have hN : cfg0.N = 8 := N_0
  have hi0 : (i 0).val < 2048 := (i 0).isLt
  have hi1 : (i 1).val < 1024 := (i 1).isLt
  obtain ⟨t, ht⟩ : ∃ t : Fin cfg0.N, t.val = (i 0).val / 256 := ⟨⟨(i 0).val / 256, by omega⟩, rfl⟩
  obtain ⟨-, -, -, -, -, -, -, -, e8, e9⟩ := idx_facts t
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- So after the region the output array is `outArr`. -/
theorem final (c : Dev nD) : (dats m 0 c).arrAt 4 cfg0.N = outArr m c :=
  (dats m 0 c).arrAt_eq_of_cover 4 (outArr m c) (fun t _ => flushed_eq m c t) cover

end Cert.KernelIdeal.KValue

end
-- ==== Proof.KerValue.lean ====
/-
  The kernel program's value.

  After the region the host reshapes its output array [2048, 1024] to [2048, 8, 128]: entry (n, s, f) of the result is
  entry (n, 128 s + f) of the array, and position 128 s + f of the flattened axis has slot s and feature f. The region's
  output array is one function of the argument arrays (its entry (n, q) is the kernel arrangement of the graph
  convolution at node n, slot q / 128, feature q % 128), so the result is the specification's kernel arrangement
      out[n, s, f] = Σ_c (Σ_k adj[n, k] · x[k, c / 128, c % 128]) · (δ(c / 128, s) · w[c % 128, f]) + b[f]
  of the four argument arrays as launched, which no operation of the program writes.
  Nothing here uses a law that could fail at an infinity: every step reads a value or renames an index of a sum.
-/
import proofs.«121691_g2000406713105512_pallasbulk_660_2_alg».proof.Proof.Gen.KernelIdeal.Frame
import proofs.«121691_g2000406713105512_pallasbulk_660_2_alg».proof.Proof.KerBlocks
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.GcnSpec (slotOf featOf)

variable (m : (ℓ : Loc nD τ sig) → Buf (Elt Ideal) ℓ) (ρ : Dev nD → PrngReg)

/-- The output array [2048, 1024] reshaped to [2048, 8, 128]: entry (n, s, f) is entry (n, 128 s + f), whose slot is s
    and whose feature is f. -/
theorem reshaped_apply (c : Dev nD) (n : Fin 2048) (s : Fin 8) (f : Fin 128) :
    shapeCast S2048x8x128 (outArr m c) shapeCasts_S2048x1024_S2048x8x128 (ix3 n s f)
      = Cert.GcnSpec.kerAt (m ((c.tc : Thread nD τ).loc main_arg0)) (m ((c.tc : Thread nD τ).loc main_arg1))
          (m ((c.tc : Thread nD τ).loc main_arg2)) (m ((c.tc : Thread nD τ).loc main_arg3)) n s f := by
  have hs := s.isLt
  have hf := f.isLt
  refine (shapeCast_apply _ _ (ix3 n s f) (ix2 n (⟨s.val * 128 + f.val, by omega⟩ : Fin 1024)) ?_).trans ?_
  · rw [Shape.rowMajor_val_two, Shape.rowMajor_val_three]
    show n.val * 1024 + (s.val * 128 + f.val) = (n.val * 8 + s.val) * 128 + f.val
    omega
  have e1 : slotOf (⟨s.val * 128 + f.val, by omega⟩ : Fin 1024) = s := Fin.ext (by show (s.val * 128 + f.val) / 128 = s.val; omega)
  have e2 : featOf (⟨s.val * 128 + f.val, by omega⟩ : Fin 1024) = f := Fin.ext (by show (s.val * 128 + f.val) % 128 = f.val; omega)
  show Cert.GcnSpec.kerAt _ _ _ _ n (slotOf (⟨s.val * 128 + f.val, _⟩ : Fin 1024)) (featOf (⟨s.val * 128 + f.val, _⟩ : Fin 1024)) = _
  rw [e1, e2]

/-- The program's result: the host reshapes the region's output array, which is `outArr`, to [2048, 8, 128]. -/
theorem tail (c : Dev nD) :
    Pipeline.afterTail₀ cfgs (dats m) 0 (V0 m) [hostOps1] c main_v15
      = Cert.GcnSpec.kerArr (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v15) = _
  after_results
  refine funext fun i => ?_
  show shapeCast S2048x8x128 (Pipeline.withArrays (cfgs 0).spec c (V0 m c) (fun w => (dats m 0 c).arrAt w (cfgs 0).N) (Proc.devRef .tc main_v14)) shapeCasts_S2048x1024_S2048x8x128 i = _
  rw [show Pipeline.withArrays (cfgs 0).spec c (V0 m c) (fun w => (dats m 0 c).arrAt w (cfgs 0).N) (Proc.devRef .tc main_v14) = outArr m c from
    (Pipeline.withArrays_arr spec0 launch0.win.arr_inj c _ _ 4).trans (final m c)]
  obtain ⟨n, s, f, rfl⟩ : ∃ (n : Fin 2048) (s : Fin 8) (f : Fin 128), i = ix3 n s f := ⟨i 0, i 1, i 2, eq_ix3 i⟩
  exact reshaped_apply m c n s f

/-- THE KERNEL PROGRAM'S VALUE: from any memory, the program runs, its result array ends holding the kernel arrangement
    of the graph convolution of the four argument arrays as launched, and the argument arrays end unchanged. -/
theorem run : θ_run (defs (F := Ideal)) (onTc (τ := τ) (main (F := Ideal))) ⟨m, fun _ => 0, ρ⟩ (fun r => ∀ c : Dev nD,
      r.2.mem ((c.tc : Thread nD τ).loc main_v15) = Cert.GcnSpec.kerArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v15 (Pipeline.mem_restRefs_of main_v15 (by decide) (by decide))).trans (tail m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefRegion0.lean ====
/-
  The first region of the reference: the support x2d · W, one block of 512 rows per grid point.

  Stated at a parameter V, the buffer contents when the region is entered. At point t the body loads the block of 512
  rows of x2d (window 0) and the whole of W (window 1) and stores their product into the output block (window 2) in one
  store covering it; so after the body the output's buffer holds that product of the two input blocks, and the two
  inputs' buffers hold their blocks, at every point (W is fetched once and stays in place).
-/
import proofs.«121691_g2000406713105512_pallasbulk_660_2_alg».proof.Proof.Gen.ReferenceIdeal.Launch
import proofs.«121691_g2000406713105512_pallasbulk_660_2_alg».proof.Proof.Gen.ReferenceIdeal.Skeleton
import proofs.«121691_g2000406713105512_pallasbulk_660_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether fetched there or kept from before. -/
theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole block of x2d rows, the whole of W, the whole output block, as rectangles. -/
abbrev rRows : Rect S512x128 := Rect.unit (s := S512x128) ![0, 0] S512x128.size inb_S512x128_S512x128_0_0
abbrev rW : Rect S128x128 := Rect.unit (s := S128x128) ![0, 0] S128x128.size inb_S128x128_S128x128_0_0

/-- What the body leaves in the output block: its one store, of the product of the two loads. -/
def supBlock (x0 : Vec F S512x128 .f32) (x1 : Vec F S128x128 .f32) : Vec F S512x128 .f32 :=
  View.canon [⟨rRows, k0_pay1 (View.ld x0 rRows) (View.ld x1 rW)⟩]

/-- The one store covers the output block. -/
theorem supCover (p0 : Vec F S512x128 .f32) (y : S512x128.Idx) :
    ∃ pc ∈ ([⟨rRows, p0⟩] : List (View.Piece (Elt F) S512x128 .f32)), y ∈ pc.1.set :=
  View.cover_of_tiled [⟨rRows, p0⟩] S512x128.size (by rfl) y

set_option maxHeartbeats 1000000 in
/-- The body on whole staging buffers: the inputs are read and kept, the output ends at the product block. -/
theorem run_xw (c : Dev nD) (E : Set ℕ) (i : grid0.Coords) (arg2 : Memref sig .tc .vmem S512x128 .f32) (harg2 : arg2.IsWhole)
    (arg3 : Memref sig .tc .vmem S128x128 .f32) (harg3 : arg3.IsWhole) (arg4 : Memref sig .tc .vmem S512x128 .f32) (harg4 : arg4.IsWhole)
    (x0 : Vec F S512x128 .f32) (x1 : Vec F S128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (supBlock x0 x1)) -∗ K ⟨⟩))
      ⊢ wp frame (wpE (defs₀ (F := F)) Variants.none c none) E (cc0__xw_kernel i arg2 harg2 arg3 harg3 arg4 harg4) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (supCover _)

/-- The region's proof data: the arrays as found; after the body each input's buffer at its block, the output's at the
    product of the two input blocks; the scoped rest and the generator register untouched; nothing owed. -/
def data0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => supBlock (blk0 V c 0 t) (blk0 V c 1 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after0 (c : Dev nD) (t : Fin cfg0.N) : (data0 V c).after 0 t = blk0 V c 0 t := by dsimp only [data0]
theorem data0_after1 (c : Dev nD) (t : Fin cfg0.N) : (data0 V c).after 1 t = blk0 V c 1 t := by dsimp only [data0]
theorem data0_after2 (c : Dev nD) (t : Fin cfg0.N) : (data0 V c).after 2 t = supBlock (blk0 V c 0 t) (blk0 V c 1 t) := by dsimp only [data0]

theorem data0_before0 (c : Dev nD) (t : Fin cfg0.N) (d) : (data0 V c).before 0 t d = blk0 V c 0 t :=
  held0_0 V (data0 V c) (data0_A V c 0) (data0_after0 V c) t d
theorem data0_before1 (c : Dev nD) (t : Fin cfg0.N) (d) : (data0 V c).before 1 t d = blk0 V c 1 t :=
  held0_1 V (data0 V c) (data0_A V c 1) (data0_after1 V c) t d

/-- What the body is called with at point t, the windows one by one, -/
def pre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d)))

/-- and what it returns. -/
def post0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [data0_before0, data0_before1]
  rw [show (data0 V c).Φ t.succ = (data0 V c).Φ t.castSucc from rfl,
    show (data0 V c).owesAt () t.succ = (data0 V c).owesAt () t.castSucc from rfl,
    data0_after0, data0_after1, data0_after2]
  iintro ⟨HΦ, Ho, ⟨%d0, H0⟩, ⟨%d1, H1⟩, ⟨%d2, H2⟩⟩
  iapply (run_xw c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first region, at every point. -/
theorem obligation0 (c : Dev nD) : BodyObligation (data0 (F := F) V c) (defs₀ (F := F)) Variants.none () Set.univ := fun t => by
  rw [bigSep_W0, bigSep_W0]
  exact body0 V c t

end Region0

end Cert.ReferenceIdeal.Hand

end
-- ==== Proof.RefRegion1Base.lean ====
/-
  The second region of the reference, adj · support + bias accumulated over four blocks of neighbours: what its three
  cases are stated over.

  The grid is [8, 2, 4]; the last coordinate k runs over the four blocks of 512 neighbours. At k = 0 the body clears its
  accumulator (a buffer of its own, kept between points) before adding the block product; at k = 1, 2 it only adds; at
  k = 3 it adds and then stores accumulator + bias into the output block, which is written back there and nowhere else.
  Point t has k = t mod 4, so the two conditions of the body are t ≡ 0 and t ≡ 3 (mod 4).
-/
import proofs.«121691_g2000406713105512_pallasbulk_660_2_alg».proof.Proof.Gen.ReferenceIdeal.Launch
import proofs.«121691_g2000406713105512_pallasbulk_660_2_alg».proof.Proof.Gen.ReferenceIdeal.Skeleton
import proofs.«121691_g2000406713105512_pallasbulk_660_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears its accumulator: the last grid coordinate is 0. -/
abbrev condInit (i : grid1.Coords) : Prop := (Scalar.cmpi .ne (Scalar.extui (Scalar.cmpi .eq (BitVec.ofNat 32 (i 2).val) 0#32)) 0#32) = 1#1
theorem condInit_iff : ∀ t : Fin cfg1.N, condInit (grid1.coords t) ↔ t.val % 4 = 0 :=
  (by decide +kernel : ∀ t : Fin grid1.N, condInit (grid1.coords t) ↔ t.val % 4 = 0)

/-- The body stores the output block: the last grid coordinate is 3. -/
abbrev condLast (i : grid1.Coords) : Prop := k1_cond2 i = 1#1
theorem condLast_iff : ∀ t : Fin cfg1.N, condLast (grid1.coords t) ↔ t.val % 4 = 3 :=
  (by decide +kernel : ∀ t : Fin grid1.N, condLast (grid1.coords t) ↔ t.val % 4 = 3)

/-- The three input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- The output window is idle, and not written back, wherever the body does not store it; live where it does. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem live1_3 : ∀ t : Fin cfg1.N, condLast (grid1.coords t) → cfg1.idle 3 (grid1.coords t) = false := by decide +kernel

/-- Each window's current staging buffer at point t, as the pipeline passes it to the body. -/
abbrev ms1_0 (t : Fin cfg1.N) : Memref sig .tc .vmem S256x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .f32 := win1_3.stage (cfg1.slots t 3)
abbrev hs1_3 (t : Fin cfg1.N) : (ms1_3 t).IsWhole := hstage1_3 ((cfg1.slots t 3).cast nbuf1_3)
/-- The accumulator: a whole buffer of the kernel's own. -/
abbrev accM : Memref sig .tc .vmem S256x512 .f32 := Memref.whole cc1_scratch0
/-- The accumulator and one output staging buffer as views, through which their contents are stated. -/
abbrev accV : View sig .tc .vmem S256x512 .f32 := accM.view
abbrev outV : View sig .tc .vmem S256x512 .f32 := (Memref.whole cc1_stg3_0 : Memref sig .tc .vmem S256x512 .f32).view

/-- The scoped buffers the second region does not stage, with the accumulator's part left open. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- What the region hands the body before the first point: every scoped buffer it does not stage at some contents,
    the accumulator among them, and the generator register. -/
theorem entry_inv (c : Dev nD) :
    (Pipeline.ΦA spec1 c : sProp 𝕄)
      = iprop(scopedWith c (iprop(∃ d, owns (c : Thread nD τ) accM fullShare d)) ∗ (∃ r, prngReg c r)) := by
  unfold Pipeline.ΦA; rw [scopedRest1_eq]; simp only [scopedWith, accM, owns_whole]; try rfl

end Cert.ReferenceIdeal.Hand

end
-- ==== Proof.RefRegion1Init.lean ====
/-
  The accumulating body at a point with k = 0: the accumulator, whatever it held, is cleared and the block product added; the output block is not touched.
-/
import proofs.«121691_g2000406713105512_pallasbulk_660_2_alg».proof.Proof.RefRegion1Base

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at a point with k = 0, with the run that finds them: the three
    inputs read and kept, the output's buffer handed back as found, the accumulator entered at anything. -/
noncomputable def runInit (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (hc0 : condInit i) (hc1 : ¬condLast i)
    (x0 : Vec F S256x512 .f32) (x1 : Vec F S512x512 .f32) (x2 : Vec F S1x512 .f32) :
    Σ' (L3 : List (View.Piece (Elt F) S256x512 .f32)), { LS : List (View.Piece (Elt F) S256x512 .f32) //
      ∀ (xi3 : Vec F S256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__adj_bias_kernel i arg3 harg3 arg4 harg4 arg5 harg5 arg6 harg6 arg7 harg7) K } := by
  refine ⟨[], ?_, fun xi3 E K => ?run⟩
  case run =>
    simp only [cc1__adj_bias_kernel_eq_skeleton]; unfold cc1__adj_bias_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.ReferenceIdeal.Hand

end
-- ==== Proof.RefRegion1Mid.lean ====
/-
  The accumulating body at a point with k = 1 or 2: the block product is added to what the point before left in the accumulator; the output block is not touched.
-/
import proofs.«121691_g2000406713105512_pallasbulk_660_2_alg».proof.Proof.RefRegion1Base

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at a point with k = 1 or 2, with the run that finds them: the
    accumulator entered at what the point before left (xs). -/
noncomputable def runMid (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (hc0 : ¬condInit i) (hc1 : ¬condLast i)
    (x0 : Vec F S256x512 .f32) (x1 : Vec F S512x512 .f32) (x2 : Vec F S1x512 .f32) (xs : Vec F S256x512 .f32) :
    Σ' (L3 : List (View.Piece (Elt F) S256x512 .f32)), { LS : List (View.Piece (Elt F) S256x512 .f32) //
      ∀ (xi3 : Vec F S256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__adj_bias_kernel i arg3 harg3 arg4 harg4 arg5 harg5 arg6 harg6 arg7 harg7) K } := by
  refine ⟨[], ?_, fun xi3 E K => ?run⟩
  case run =>
    simp only [cc1__adj_bias_kernel_eq_skeleton]; unfold cc1__adj_bias_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.ReferenceIdeal.Hand

end
-- ==== Proof.RefRegion1Last.lean ====
/-
  The accumulating body at a point with k = 3: the block product is added to what the point before left in the accumulator, and accumulator + bias is stored over the whole output block.
-/
import proofs.«121691_g2000406713105512_pallasbulk_660_2_alg».proof.Proof.RefRegion1Base

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output block and in the accumulator at a point with k = 3, with the run
    that finds them: the accumulator entered at what the point before left (xs), the output's buffer at anything. -/
noncomputable def runLast (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (hc0 : ¬condInit i) (hc1 : condLast i)
    (x0 : Vec F S256x512 .f32) (x1 : Vec F S512x512 .f32) (x2 : Vec F S1x512 .f32) (xs : Vec F S256x512 .f32) :
    Σ' (L3 : List (View.Piece (Elt F) S256x512 .f32)), { LS : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__adj_bias_kernel i arg3 harg3 arg4 harg4 arg5 harg5 arg6 harg6 arg7 harg7) K } := by
  refine ⟨?_, ?_, fun E K => ?run⟩
  case run =>
    simp only [cc1__adj_bias_kernel_eq_skeleton]; unfold cc1__adj_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.ReferenceIdeal.Hand

end
-- ==== Proof.RefRegion1.lean ====
/-
  The second region of the reference point by point: what the accumulator and the output block hold after each point,
  the region's invariant, and the body obligation.

  After the point t the accumulator holds: at t ≡ 0 (mod 4) what the clearing case leaves; otherwise what the adding
  case leaves over the accumulator of the point before. The output block is stored at t ≡ 3 only. Between points the
  invariant keeps the accumulator at exactly those contents (before the first point: at anything).
-/
import proofs.«121691_g2000406713105512_pallasbulk_660_2_alg».proof.Proof.RefRegion1Init
import proofs.«121691_g2000406713105512_pallasbulk_660_2_alg».proof.Proof.RefRegion1Mid
import proofs.«121691_g2000406713105512_pallasbulk_660_2_alg».proof.Proof.RefRegion1Last

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases
variable (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole)

theorem accCover_init (hc0 : condInit i) (hc1 : ¬condLast i) (x0 : Vec F S256x512 .f32) (x1 : Vec F S512x512 .f32) (x2 : Vec F S1x512 .f32) (y : S256x512.Idx) :
    ∃ pc ∈ (runInit c i arg3 harg3 arg4 harg4 arg5 harg5 arg6 harg6 arg7 harg7 hc0 hc1 x0 x1 x2).2.1, y ∈ pc.1.set :=
  View.cover_of_tiledL (runInit c i arg3 harg3 arg4 harg4 arg5 harg5 arg6 harg6 arg7 harg7 hc0 hc1 x0 x1 x2).2.1 S256x512.size (by sl_kernel_rfl) y

/-- The accumulator after a point with k = 0. -/
def accInit (hc0 : condInit i) (hc1 : ¬condLast i) (x0 : Vec F S256x512 .f32) (x1 : Vec F S512x512 .f32) (x2 : Vec F S1x512 .f32) : Vec F S256x512 .f32 :=
  accV.read (Elt F) (accV.writes (Elt F) accV.junk (runInit c i arg3 harg3 arg4 harg4 arg5 harg5 arg6 harg6 arg7 harg7 hc0 hc1 x0 x1 x2).2.1)

theorem accCover_mid (hc0 : ¬condInit i) (hc1 : ¬condLast i) (x0 : Vec F S256x512 .f32) (x1 : Vec F S512x512 .f32) (x2 : Vec F S1x512 .f32) (xs : Vec F S256x512 .f32) (y : S256x512.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S256x512.size (by sl_kernel_rfl) y

/-- The accumulator after a point with k = 1 or 2, over what the point before left. -/
def accMid (hc0 : ¬condInit i) (hc1 : ¬condLast i) (x0 : Vec F S256x512 .f32) (x1 : Vec F S512x512 .f32) (x2 : Vec F S1x512 .f32) (xs : Vec F S256x512 .f32) : Vec F S256x512 .f32 :=
  accV.read (Elt F) (accV.writes (Elt F) accV.junk (runMid c i arg3 harg3 arg4 harg4 arg5 harg5 arg6 harg6 arg7 harg7 hc0 hc1 x0 x1 x2 xs).2.1)

theorem accCover_last (hc0 : ¬condInit i) (hc1 : condLast i) (x0 : Vec F S256x512 .f32) (x1 : Vec F S512x512 .f32) (x2 : Vec F S1x512 .f32) (xs : Vec F S256x512 .f32) (y : S256x512.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S256x512.size (by sl_kernel_rfl) y

/-- The accumulator after a point with k = 3. -/
def accLast (hc0 : ¬condInit i) (hc1 : condLast i) (x0 : Vec F S256x512 .f32) (x1 : Vec F S512x512 .f32) (x2 : Vec F S1x512 .f32) (xs : Vec F S256x512 .f32) : Vec F S256x512 .f32 :=
  accV.read (Elt F) (accV.writes (Elt F) accV.junk (runLast c i arg3 harg3 arg4 harg4 arg5 harg5 arg6 harg6 arg7 harg7 hc0 hc1 x0 x1 x2 xs).2.1)

theorem outCover_last (hc0 : ¬condInit i) (hc1 : condLast i) (x0 : Vec F S256x512 .f32) (x1 : Vec F S512x512 .f32) (x2 : Vec F S1x512 .f32) (xs : Vec F S256x512 .f32) (y : S256x512.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S256x512.size (by sl_kernel_rfl) y

/-- The output block after a point with k = 3. -/
def outLast (hc0 : ¬condInit i) (hc1 : condLast i) (x0 : Vec F S256x512 .f32) (x1 : Vec F S512x512 .f32) (x2 : Vec F S1x512 .f32) (xs : Vec F S256x512 .f32) : Vec F S256x512 .f32 :=
  outV.read (Elt F) (outV.writes (Elt F) outV.junk (runLast c i arg3 harg3 arg4 harg4 arg5 harg5 arg6 harg6 arg7 harg7 hc0 hc1 x0 x1 x2 xs).1)

end Cases

/-- A stand-in for the output's buffer at the points that do not store it: it is neither written back nor read there. -/
def outIdle : Vec F S256x512 .f32 := outV.read (Elt F) outV.junk

section Region1
variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The cases at a grid point -/

/-- The accumulator after point t when t ≡ 0 (mod 4). -/
def stepInit (c : Dev nD) (t : Fin cfg1.N) (h0 : t.val % 4 = 0) : Vec F S256x512 .f32 :=
  accInit c (grid1.coords t) (ms1_0 t) (hs1_0 t) (ms1_1 t) (hs1_1 t) (ms1_2 t) (hs1_2 t) (ms1_3 t) (hs1_3 t) accM (Memref.isWhole_whole _) ((condInit_iff t).mpr h0) (fun h => by have := (condLast_iff t).mp h; omega)
    (blk1 V c 0 t) (blk1 V c 1 t) (blk1 V c 2 t)

/-- The accumulator after point t when t ≡ 1, 2 (mod 4), over the accumulator xs of the point before. -/
def stepMid (c : Dev nD) (t : Fin cfg1.N) (h0 : ¬t.val % 4 = 0) (h1 : ¬t.val % 4 = 3) (xs : Vec F S256x512 .f32) : Vec F S256x512 .f32 :=
  accMid c (grid1.coords t) (ms1_0 t) (hs1_0 t) (ms1_1 t) (hs1_1 t) (ms1_2 t) (hs1_2 t) (ms1_3 t) (hs1_3 t) accM (Memref.isWhole_whole _) (fun h => h0 ((condInit_iff t).mp h)) (fun h => h1 ((condLast_iff t).mp h))
    (blk1 V c 0 t) (blk1 V c 1 t) (blk1 V c 2 t) xs

/-- The accumulator and the output block after point t when t ≡ 3 (mod 4). -/
def stepLastAcc (c : Dev nD) (t : Fin cfg1.N) (h0 : ¬t.val % 4 = 0) (h1 : t.val % 4 = 3) (xs : Vec F S256x512 .f32) : Vec F S256x512 .f32 :=
  accLast c (grid1.coords t) (ms1_0 t) (hs1_0 t) (ms1_1 t) (hs1_1 t) (ms1_2 t) (hs1_2 t) (ms1_3 t) (hs1_3 t) accM (Memref.isWhole_whole _) (fun h => h0 ((condInit_iff t).mp h)) ((condLast_iff t).mpr h1)
    (blk1 V c 0 t) (blk1 V c 1 t) (blk1 V c 2 t) xs
def stepLastOut (c : Dev nD) (t : Fin cfg1.N) (h0 : ¬t.val % 4 = 0) (h1 : t.val % 4 = 3) (xs : Vec F S256x512 .f32) : Vec F S256x512 .f32 :=
  outLast c (grid1.coords t) (ms1_0 t) (hs1_0 t) (ms1_1 t) (hs1_1 t) (ms1_2 t) (hs1_2 t) (ms1_3 t) (hs1_3 t) accM (Memref.isWhole_whole _) (fun h => h0 ((condInit_iff t).mp h)) ((condLast_iff t).mpr h1)
    (blk1 V c 0 t) (blk1 V c 1 t) (blk1 V c 2 t) xs

/-- THE ACCUMULATION: the output's buffer and the accumulator after the point at position n. -/
def outsAt1 (c : Dev nD) : (n : ℕ) → n < cfg1.N → Vec F S256x512 .f32 × Vec F S256x512 .f32
  | 0, hn => (outIdle, stepInit V c ⟨0, hn⟩ (Nat.zero_mod 4))
  | n + 1, hn =>
    if h0 : (n + 1) % 4 = 0 then (outIdle, stepInit V c ⟨n + 1, hn⟩ h0)
    else if h1 : (n + 1) % 4 = 3 then
      (stepLastOut V c ⟨n + 1, hn⟩ h0 h1 (outsAt1 c n (Nat.lt_of_succ_lt hn)).2, stepLastAcc V c ⟨n + 1, hn⟩ h0 h1 (outsAt1 c n (Nat.lt_of_succ_lt hn)).2)
    else (outIdle, stepMid V c ⟨n + 1, hn⟩ h0 h1 (outsAt1 c n (Nat.lt_of_succ_lt hn)).2)

theorem outsAt1_init (c : Dev nD) (t : Fin cfg1.N) (h0 : t.val % 4 = 0) :
    outsAt1 V c t.val t.isLt = (outIdle, stepInit V c t h0) := by
  obtain ⟨n, hn⟩ := t
  cases n with
  | zero => exact rfl
  | succ n => exact (dif_pos h0).trans rfl

theorem outsAt1_mid (c : Dev nD) (t : Fin cfg1.N) (h0 : ¬t.val % 4 = 0) (h1 : ¬t.val % 4 = 3) :
    outsAt1 V c t.val t.isLt = (outIdle, stepMid V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_last (c : Dev nD) (t : Fin cfg1.N) (h0 : ¬t.val % 4 = 0) (h1 : t.val % 4 = 3) :
    outsAt1 V c t.val t.isLt = (stepLastOut V c t h0 h1 (outsAt1 V c (t.val - 1) (Nat.lt_of_le_of_lt (Nat.sub_le _ _) t.isLt)).2,
      stepLastAcc V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: at n = 0 what the region is entered with; afterwards the accumulator at what the point before left. -/
def inv1 (c : Dev nD) : (n : ℕ) → n ≤ cfg1.N → sProp 𝕄
  | 0, _ => Pipeline.ΦA spec1 c
  | n + 1, hn => iprop(scopedWith c (owns (c : Thread nD τ) accM fullShare ((outsAt1 V c n hn).2)) ∗ (∃ r, prngReg c r))

theorem inv1_zero (c : Dev nD) (n : ℕ) (h : n ≤ cfg1.N) (hz : n = 0) : inv1 V c n h = Pipeline.ΦA spec1 c := by
  subst hz; rfl

theorem inv1_succ (c : Dev nD) (n : ℕ) (hn : n < cfg1.N) :
    inv1 V c (n + 1) hn = iprop(scopedWith c (owns (c : Thread nD τ) accM fullShare ((outsAt1 V c n hn).2)) ∗ (∃ r, prngReg c r)) := rfl

theorem inv1_pos (c : Dev nD) (n : ℕ) (h : n ≤ cfg1.N) (hz : n ≠ 0) :
    inv1 V c n h = iprop(scopedWith c (owns (c : Thread nD τ) accM fullShare ((outsAt1 V c (n - 1) (by omega)).2)) ∗ (∃ r, prngReg c r)) := by
  cases n with
  | zero => exact absurd rfl hz
  | succ n => rfl

/-- The accumulator's part of the scoped buffers may be weakened. -/
theorem scopedWith_mono (c : Dev nD) {S S' : sProp 𝕄} (h : S ⊢ S') : scopedWith (F := F) c S ⊢ scopedWith c S' := by
  unfold scopedWith
  iintro ⟨Ha, Hb, Hc, Hd, He, HS⟩
  isplitl [Ha]; · iexact Ha
  isplitl [Hb]; · iexact Hb
  isplitl [Hc]; · iexact Hc
  isplitl [Hd]; · iexact Hd
  isplitl [He]; · iexact He
  iapply h; iexact HS

/-! ## The proof data -/

def data1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (outsAt1 V c t.val t.isLt).1
  Φ t := inv1 V c t.val (Nat.le_of_lt_succ t.isLt)
  q _ := fullShare
  owed _ := 0

theorem data1_A (c : Dev nD) (w : Fin cfg1.W) : (data1 V c).A w = V c (Pipeline.arrRef spec1 w) := by
  dsimp only [data1]
theorem data1_inv (c : Dev nD) (t : Fin cfg1.N) :
    (data1 V c).Φ t.castSucc = inv1 V c t.val (Nat.le_of_lt t.isLt) := by
  dsimp only [data1]; simp only [Fin.coe_castSucc]
theorem data1_after0 (c : Dev nD) (t : Fin cfg1.N) : (data1 V c).after 0 t = blk1 V c 0 t := by dsimp only [data1]
theorem data1_after1 (c : Dev nD) (t : Fin cfg1.N) : (data1 V c).after 1 t = blk1 V c 1 t := by dsimp only [data1]
theorem data1_after2 (c : Dev nD) (t : Fin cfg1.N) : (data1 V c).after 2 t = blk1 V c 2 t := by dsimp only [data1]
theorem data1_after3 (c : Dev nD) (t : Fin cfg1.N) : (data1 V c).after 3 t = (outsAt1 V c t.val t.isLt).1 := by dsimp only [data1]

theorem data1_before0 (c : Dev nD) (t : Fin cfg1.N) (d) : (data1 V c).before 0 t d = blk1 V c 0 t :=
  held1_0 V (data1 V c) (data1_A V c 0) (data1_after0 V c) t d
theorem data1_before1 (c : Dev nD) (t : Fin cfg1.N) (d) : (data1 V c).before 1 t d = blk1 V c 1 t :=
  held1_1 V (data1 V c) (data1_A V c 1) (data1_after1 V c) t d
theorem data1_before2 (c : Dev nD) (t : Fin cfg1.N) (d) : (data1 V c).before 2 t d = blk1 V c 2 t :=
  held1_2 V (data1 V c) (data1_A V c 2) (data1_after2 V c) t d

/-! ## The body obligation -/

def pre1 (c : Dev nD) (t : Fin cfg1.N) : sProp 𝕄 :=
  iprop((data1 V c).Φ t.castSucc ∗ (data1 V c).owesAt () t.castSucc
    ∗ (∃ d, owns (c : Thread nD τ) (ms1_0 t) fullShare ((data1 V c).before 0 t d))
    ∗ (∃ d, owns (c : Thread nD τ) (ms1_1 t) fullShare ((data1 V c).before 1 t d))
    ∗ (∃ d, owns (c : Thread nD τ) (ms1_2 t) fullShare ((data1 V c).before 2 t d))
    ∗ (∃ d, owns (c : Thread nD τ) (ms1_3 t) fullShare ((data1 V c).before 3 t d)))

def post1 (c : Dev nD) (t : Fin cfg1.N) : sProp 𝕄 :=
  iprop((data1 V c).Φ t.succ ∗ (data1 V c).owesAt () t.succ
    ∗ (data1 V c).leavesExact 0 t
    ∗ (data1 V c).leavesExact 1 t
    ∗ (data1 V c).leavesExact 2 t
    ∗ (data1 V c).leavesExact 3 t)

theorem leaves1_0 (c : Dev nD) (t : Fin cfg1.N) : (data1 V c).leavesExact 0 t = owns (c : Thread nD τ) (ms1_0 t) fullShare (blk1 V c 0 t) := by
  unfold Dat.leavesExact; rw [live1_0 t, data1_after0]
theorem leaves1_1 (c : Dev nD) (t : Fin cfg1.N) : (data1 V c).leavesExact 1 t = owns (c : Thread nD τ) (ms1_1 t) fullShare (blk1 V c 1 t) := by
  unfold Dat.leavesExact; rw [live1_1 t, data1_after1]
theorem leaves1_2 (c : Dev nD) (t : Fin cfg1.N) : (data1 V c).leavesExact 2 t = owns (c : Thread nD τ) (ms1_2 t) fullShare (blk1 V c 2 t) := by
  unfold Dat.leavesExact; rw [live1_2 t, data1_after2]

end Region1

end Cert.ReferenceIdeal.Hand

end
-- ==== Proof.RefRegion1Body.lean ====
/-
  The body obligation of the second region, and how its invariant meets the region's entry and exit.

  At a point t the case is decided by t mod 4. The body is handed the three input blocks, the output's buffer, and the
  accumulator at what the point before left (at anything before the first point); it hands back the inputs as they were,
  the accumulator at this point's contents, and the output's buffer untouched (k < 3) or at accumulator + bias (k = 3).
-/
import proofs.«121691_g2000406713105512_pallasbulk_660_2_alg».proof.Proof.RefRegion1

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The scoped buffers the region does not stage, other than the accumulator. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem scopedWith_split (c : Dev nD) (S : sProp 𝕄) : scopedWith (F := F) c S ⊢ iprop(others c ∗ S) := by
  unfold scopedWith others
  iintro ⟨Ha, Hb, Hc, Hd, He, HS⟩
  isplitl [Ha Hb Hc Hd He]
  · isplitl [Ha]; · iexact Ha
    isplitl [Hb]; · iexact Hb
    isplitl [Hc]; · iexact Hc
    isplitl [Hd]; · iexact Hd
    iexact He
  iexact HS

theorem scopedWith_join (c : Dev nD) (S : sProp 𝕄) : iprop(others c ∗ S) ⊢ scopedWith (F := F) c S := by
  unfold scopedWith others
  iintro ⟨⟨Ha, Hb, Hc, Hd, He⟩, HS⟩
  isplitl [Ha]; · iexact Ha
  isplitl [Hb]; · iexact Hb
  isplitl [Hc]; · iexact Hc
  isplitl [Hd]; · iexact Hd
  isplitl [He]; · iexact He
  iexact HS

set_option maxHeartbeats 4800000 in
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [data1_before0, data1_before1, data1_before2]
  rw [show (data1 V c).owesAt () t.succ = (data1 V c).owesAt () t.castSucc from rfl]
  rw [show (data1 V c).Φ t.succ = inv1 V c (t.val + 1) t.isLt from rfl, inv1_succ]
  rw [leaves1_0, leaves1_1, leaves1_2]
  have hN : t.val < 64 := lt_of_lt_of_eq t.isLt (show cfg1.N = 64 from N_1)
  by_cases h0 : t.val % 4 = 0
  · have h1 : ¬t.val % 4 = 3 := by omega
    have hcI : condInit (grid1.coords t) := (condInit_iff t).mpr h0
    have hcL : ¬condLast (grid1.coords t) := fun h => h1 ((condLast_iff t).mp h)
    rw [Dat.leavesExact_idle (data1 V c) 3 t (idle1_3 t hcL) (noFlush1_3 t hcL)]
    rw [outsAt1_init V c t h0]
    unfold stepInit accInit; (try dsimp only)
    by_cases hz : t.val = 0
    · rw [data1_inv V c t, inv1_zero V c _ _ hz, entry_inv]
      iintro ⟨⟨HR, Hg⟩, Ho, ⟨%d0, H0⟩, ⟨%d1, H1⟩, ⟨%d2, H2⟩, ⟨%d3, H3⟩⟩
      ihave HR' := (scopedWith_split c _) $$ HR
      icases HR' with ⟨Hoth, HS⟩
      iapply ((runInit c (grid1.coords t) _ _ _ _ _ _ _ _ _ _ hcI hcL (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth HS]
        · iapply (scopedWith_join c _)
          isplitl [Hoth]; · iexact Hoth
          unfold owns; iexists _; isplitr
          swap; · iexact HS
          ipureintro; exact View.read_writes_of_cover _ _ _ _ _ (accCover_init c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [data1_inv V c t, inv1_pos V c _ _ hz]
      iintro ⟨⟨HR, Hg⟩, Ho, ⟨%d0, H0⟩, ⟨%d1, H1⟩, ⟨%d2, H2⟩, ⟨%d3, H3⟩⟩
      ihave HR' := (scopedWith_split c _) $$ HR
      icases HR' with ⟨Hoth, HS⟩
      iapply ((runInit c (grid1.coords t) _ _ _ _ _ _ _ _ _ _ hcI hcL (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hoth HS Hg]
      · isplitl [Hoth HS]
        · iapply (scopedWith_join c _)
          isplitl [Hoth]; · iexact Hoth
          unfold owns; iexists _; isplitr
          swap; · iexact HS
          ipureintro; exact View.read_writes_of_cover _ _ _ _ _ (accCover_init c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hcI : ¬condInit (grid1.coords t) := fun h => h0 ((condInit_iff t).mp h)
    by_cases h1 : t.val % 4 = 3
    · have hcL : condLast (grid1.coords t) := (condLast_iff t).mpr h1
      rw [show (data1 V c).leavesExact 3 t = owns (c : Thread nD τ) (ms1_3 t) fullShare ((data1 V c).after 3 t) from by
        unfold Dat.leavesExact; rw [live1_3 t hcL], data1_after3]
      rw [outsAt1_last V c t h0 h1]
      unfold stepLastOut stepLastAcc outLast accLast; (try dsimp only)
      rw [data1_inv V c t, inv1_pos V c _ _ hz]
      iintro ⟨⟨HR, Hg⟩, Ho, ⟨%d0, H0⟩, ⟨%d1, H1⟩, ⟨%d2, H2⟩, ⟨%d3, H3⟩⟩
      ihave HR' := (scopedWith_split c _) $$ HR
      icases HR' with ⟨Hoth, HS⟩
      iapply ((runLast c (grid1.coords t) _ _ _ _ _ _ _ _ _ _ hcI hcL (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hoth HS Hg]
      · isplitl [Hoth HS]
        · iapply (scopedWith_join c _)
          isplitl [Hoth]; · iexact Hoth
          unfold owns; iexists _; isplitr
          swap; · iexact HS
          ipureintro; exact View.read_writes_of_cover _ _ _ _ _ (accCover_last c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCover_last c _ _ _ _ _ _ _ _ _ _ _ _ _ _ _ _ _)
    · have hcL : ¬condLast (grid1.coords t) := fun h => h1 ((condLast_iff t).mp h)
      rw [Dat.leavesExact_idle (data1 V c) 3 t (idle1_3 t hcL) (noFlush1_3 t hcL)]
      rw [outsAt1_mid V c t h0 h1]
      unfold stepMid accMid; (try dsimp only)
      rw [data1_inv V c t, inv1_pos V c _ _ hz]
      iintro ⟨⟨HR, Hg⟩, Ho, ⟨%d0, H0⟩, ⟨%d1, H1⟩, ⟨%d2, H2⟩, ⟨%d3, H3⟩⟩
      ihave HR' := (scopedWith_split c _) $$ HR
      icases HR' with ⟨Hoth, HS⟩
      iapply ((runMid c (grid1.coords t) _ _ _ _ _ _ _ _ _ _ hcI hcL (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth HS]
        · iapply (scopedWith_join c _)
          isplitl [Hoth]; · iexact Hoth
          unfold owns; iexists _; isplitr
          swap; · iexact HS
          ipureintro; exact View.read_writes_of_cover _ _ _ _ _ (accCover_mid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the second region, at every point. -/
theorem obligation1 (c : Dev nD) : BodyObligation (data1 (F := F) V c) (defs₀ (F := F)) Variants.none () Set.univ := fun t => by
  rw [bigSep_W1, bigSep_W1]
  exact body1 V c t

/-- What the region is entered with is the invariant before the first point. -/
theorem inv1_in (c : Dev nD) : Pipeline.ΦA spec1 c ⊢ (data1 V c).Φ 0 := by
  rw [show (data1 V c).Φ 0 = inv1 V c 0 (Nat.zero_le _) from rfl, inv1_zero V c 0 _ rfl]
  try exact Idealize.SL.BI.Entails.refl _

/-- After the last point the invariant gives the entry form back: the accumulator's contents are forgotten. -/
theorem inv1_out (c : Dev nD) : (data1 V c).Φ (Fin.last cfg1.N) ⊢ Pipeline.ΦA spec1 c := by
  have hne : (Fin.last cfg1.N).val ≠ 0 := by rw [Fin.val_last]; have : cfg1.N = 64 := N_1; omega
  rw [show (data1 V c).Φ (Fin.last cfg1.N) = inv1 V c (Fin.last cfg1.N).val (Nat.le_of_lt_succ (Fin.last cfg1.N).isLt) from rfl,
    inv1_pos V c _ _ hne, entry_inv]
  iintro ⟨HR, Hg⟩
  isplitl [HR]
  · ihave HR' := (scopedWith_split c _) $$ HR
    icases HR' with ⟨Hoth, HS⟩
    iapply (scopedWith_join c _)
    isplitl [Hoth]; · iexact Hoth
    iexists _; iexact HS
  iexact Hg

end Region1

end Cert.ReferenceIdeal.Hand

end
-- ==== Proof.RefRun.lean ====
/-
  The reference program's run: @main as three stretches of host operations around its two regions, and the contents of
  every buffer that outlives a region at each boundary.

  The contents are a fold from the launch memory: a host stretch applies its operations; a region leaves each of its
  arrays at what its write-backs fold to and every other buffer as it was. The run ends with every such buffer at the
  last fold.
-/
import proofs.«121691_g2000406713105512_pallasbulk_660_2_alg».proof.Proof.RefRegion0
import proofs.«121691_g2000406713105512_pallasbulk_660_2_alg».proof.Proof.RefRegion1Body

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- At launch. -/
abbrev cont0 : Dev nD → Valuation τ sig (Elt F) := fun c b => m (c, b)
/-- After the first host stretch (the first region's entry). -/
abbrev cont1 : Dev nD → Valuation τ sig (Elt F) := fun c => StableHlo.after hostOps0 (cont0 m c)
abbrev ent1 : (c : Dev nD) → (b : Ref sig .tc) → Buf (Elt F) ((c : Thread nD τ).loc b) := fun c b => cont1 m c b
/-- At the first region's exit: its arrays at what the pipeline leaves, every other buffer as entered. -/
def cont2 (c : Dev nD) : Valuation τ sig (Elt F) :=
  Pipeline.withArrays spec0 c (cont1 m c) fun w => (data0 (ent1 m) c).arrAt w cfg0.N
theorem cont2_arr (c : Dev nD) (w : Fin cfg0.W) :
    cont2 m c (Proc.devRef .tc (Pipeline.arrRef spec0 w)) = (data0 (ent1 m) c).arrAt w cfg0.N := by
  unfold cont2; exact Pipeline.withArrays_arr spec0 launch0.win.arr_inj c _ _ w
theorem cont2_of_ne (c : Dev nD) (b : Ref sig .tc) (hb : ∀ w, Pipeline.arrRef spec0 w ≠ b) :
    cont2 m c (Proc.devRef .tc b) = cont1 m c (Proc.devRef .tc b) := by
  unfold cont2; exact Pipeline.withArrays_of_ne spec0 c _ _ b hb
abbrev ent2 : (c : Dev nD) → (b : Ref sig .tc) → Buf (Elt F) ((c : Thread nD τ).loc b) := fun c b => cont2 m c b
theorem exit0_arr (c : Dev nD) (w : Fin cfg0.W) : (data0 (ent1 m) c).arrAt w cfg0.N = ent2 m c (Pipeline.arrRef spec0 w) :=
  (cont2_arr m c w).symm
theorem exit0_rest (c : Dev nD) : ∀ b, b ∉ Finset.univ.image (Pipeline.arrRef spec0) → ent2 m c b = ent1 m c b :=
  fun b hb => cont2_of_ne m c b fun w e => hb (Finset.mem_image.mpr ⟨w, Finset.mem_univ _, e⟩)

/-- After the second host stretch (the second region's entry). -/
abbrev cont3 : Dev nD → Valuation τ sig (Elt F) := fun c => StableHlo.after hostOps1 (cont2 m c)
abbrev ent3 : (c : Dev nD) → (b : Ref sig .tc) → Buf (Elt F) ((c : Thread nD τ).loc b) := fun c b => cont3 m c b
/-- At the second region's exit. -/
def cont4 (c : Dev nD) : Valuation τ sig (Elt F) :=
  Pipeline.withArrays spec1 c (cont3 m c) fun w => (data1 (ent3 m) c).arrAt w cfg1.N
theorem cont4_arr (c : Dev nD) (w : Fin cfg1.W) :
    cont4 m c (Proc.devRef .tc (Pipeline.arrRef spec1 w)) = (data1 (ent3 m) c).arrAt w cfg1.N := by
  unfold cont4; exact Pipeline.withArrays_arr spec1 launch1.win.arr_inj c _ _ w
theorem cont4_of_ne (c : Dev nD) (b : Ref sig .tc) (hb : ∀ w, Pipeline.arrRef spec1 w ≠ b) :
    cont4 m c (Proc.devRef .tc b) = cont3 m c (Proc.devRef .tc b) := by
  unfold cont4; exact Pipeline.withArrays_of_ne spec1 c _ _ b hb
abbrev ent4 : (c : Dev nD) → (b : Ref sig .tc) → Buf (Elt F) ((c : Thread nD τ).loc b) := fun c b => cont4 m c b
theorem exit1_arr (c : Dev nD) (w : Fin cfg1.W) : (data1 (ent3 m) c).arrAt w cfg1.N = ent4 m c (Pipeline.arrRef spec1 w) :=
  (cont4_arr m c w).symm
theorem exit1_rest (c : Dev nD) : ∀ b, b ∉ Finset.univ.image (Pipeline.arrRef spec1) → ent4 m c b = ent3 m c b :=
  fun b hb => cont4_of_ne m c b fun w e => hb (Finset.mem_image.mpr ⟨w, Finset.mem_univ _, e⟩)

/-- After the last host stretch: the end of @main. -/
abbrev cont5 : Dev nD → Valuation τ sig (Elt F) := fun c => StableHlo.after hostOps2 (cont4 m c)

/-! ## The proof data family and the thread state -/

abbrev noTables : (p : Fin 2) → (pcfgs (F := F) p).Adm := fun p => (cfgs p).toPCfg_adm
/-- Each region's proof data at its entry contents. -/
def bothData : (p : Fin 2) → (c : Dev nD) → Dat τ (Elt F) Unit ℕ (UR sig nD τ) ℕ (Pipeline.pin (pcfgs (F := F)) noTables p) c
  | ⟨0, _⟩ => fun c => data0 (ent1 m) c
  | ⟨1, _⟩ => fun c => data1 (ent3 m) c
abbrev noVar : Variants := Variants.none
abbrev noPairs : GSem nD τ sig → Finset Unit := fun _ => ∅
abbrev noLevel : GSem nD τ sig → Unit → ℕ := fun _ _ => 0
/-- What rides beside the buffers through every segment: the generator register at some state, and nothing owed. -/
abbrev beside (c : Dev nD) : sProp 𝕄 := iprop((∃ r, prngReg c r) ∗ ∃ W, owes (c : Thread nD τ) (0 : CellTallies nD τ sig Unit) W)

abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The first region over the thread state: entered with every buffer at cont1, left with every buffer at cont2. -/
def region0 : Pipeline.RegionSeg (pcfgs (F := F)) noTables (bothData m) () defs₀ noVar noPairs noLevel 0 where
  win := launch0.win.to₀
  block_pos := launch0.block_pos
  stage_whole := launch0.stage_whole
  K := PEmpty
  osem k := k.elim
  ho := Pipeline.OwnSemFacts.none _
  hbody c := (obligation0 (ent1 m) c).loose
  hwaits := Pipeline.hwaits_of_owed_zero _ _ _ _ noPairs noLevel 0 fun _ _ => rfl
  pre c := iprop(StableHlo.held (c : Thread nD τ) (Pipeline.ucRefs τ sig) (cont1 m c) ∗ beside c)
  post c := iprop(StableHlo.held (c : Thread nD τ) (Pipeline.ucRefs τ sig) (cont2 m c) ∗ beside c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) noTables (bothData m) launch0.win launch0.arr_whole c
      ((bothData m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothData m 0 c).Φ 0 = Pipeline.ΦA spec0 c from rfl]; unfold Pipeline.ΦA
    iintro ⟨Hp, -, Hr⟩
    isplitl [Hr]; · iexact Hr
    iexact Hp
  hout c := by
    rw [Pipeline.ownSems0_none, show (bothData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (bothData m) ((bothData m 0 c).share_full fun _ => rfl)
      (ent1 m c) (ent2 m c) ((bothData m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every buffer at cont3, left with every buffer at cont4. The
    accumulator enters at anything and leaves at anything; in between the invariant keeps its contents. -/
def region1 : Pipeline.RegionSeg (pcfgs (F := F)) noTables (bothData m) () defs₀ noVar noPairs noLevel 1 where
  win := launch1.win.to₀
  block_pos := launch1.block_pos
  stage_whole := launch1.stage_whole
  K := PEmpty
  osem k := k.elim
  ho := Pipeline.OwnSemFacts.none _
  hbody c := (obligation1 (ent3 m) c).loose
  hwaits := Pipeline.hwaits_of_owed_zero _ _ _ _ noPairs noLevel 1 fun _ _ => rfl
  pre c := iprop(StableHlo.held (c : Thread nD τ) (Pipeline.ucRefs τ sig) (cont3 m c) ∗ beside c)
  post c := iprop(StableHlo.held (c : Thread nD τ) (Pipeline.ucRefs τ sig) (cont4 m c) ∗ beside c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) noTables (bothData m) launch1.win launch1.arr_whole c
      ((bothData m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bothData m 1 c).Φ 0 = Pipeline.ΦA spec1 c from rfl]; unfold Pipeline.ΦA
    iintro ⟨Hp, -, Hr⟩
    isplitl [Hr]; · iexact Hr
    iexact Hp
  hout c := by
    rw [Pipeline.ownSems0_none, show (bothData m 1 c).Φ (Fin.last _) = (data1 (ent3 m) c).Φ (Fin.last cfg1.N) from rfl]
    have hback := inv1_out (ent3 m) c
    unfold Pipeline.ΦA at hback
    iintro HΦ
    ihave H := hback $$ HΦ
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (bothData m) ((bothData m 1 c).share_full fun _ => rfl)
      (ent3 m c) (ent4 m c) ((bothData m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev allSegs : List (Pipeline.Seg (pcfgs (F := F)) noTables (bothData m) () defs₀ noVar noPairs noLevel) :=
  [ .host (hostSeg hostOps0 hostOps0_sub fresh0 (cont0 m)),
    .region (region0 m),
    .host (hostSeg hostOps1 hostOps1_sub fresh1 (cont2 m)),
    .region (region1 m),
    .host (hostSeg hostOps2 hostOps2_sub fresh2 (cont4 m)) ]

theorem main_is_segs (c : Dev nD) : main (F := F) c = Pipeline.Seg.run (allSegs m) := (main_chain c).trans (by chain_rfl)

/-- The last thread state without the owes: every buffer that outlives the regions at the last fold, the generator register. -/
abbrev lastState (c : Dev nD) : sProp 𝕄 := iprop(StableHlo.held (c : Thread nD τ) (Pipeline.ucRefs τ sig) (cont5 m c) ∗ ∃ r, prngReg c r)

set_option backward.isDefEq.respectTransparency.types false in
/-- THE RUN: from any memory with zero counters every weakly fair execution of the reference's @main terminates, nothing
    faulting, and every final state has every buffer that outlives the regions at the last fold of the contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = cont5 m c b) :=
  Pipeline.θ_run_regions_kit (pcfgs (F := F)) noTables (bothData m) () cellOf_inj emb₁ defs₀ noVar noPairs noLevel m ρ main (allSegs m)
    (fun c Q => by rw [main_is_segs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (cont0 m c) ∗ beside c)) (Tₙ := lastState m)
    (hch := ⟨fun _ => .rfl, fun _ => .rfl, fun _ => .rfl, fun _ => .rfl, fun _ => .rfl, fun c => by
      show iprop(StableHlo.held (c : Thread nD τ) (Pipeline.ucRefs τ sig) (cont5 m c) ∗ beside c) ⊢ _
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (cont0 m c)
        from Pipeline.unscopedBufs_held c (cont0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = cont5 m c b)
    (hfin := fun c s' => by
      iintro ⟨⟨Hh, -⟩, HSI⟩
      unfold StableHlo.held
      imodintro
      iapply (pointsTo_read_all (Pipeline.ucRefs τ sig) (fun b => (((c : Thread nD τ)).1, b)) (cont5 m c) s')
      isplitl [Hh] <;> iassumption)
    (hQ := fun s h => h)

end Cert.ReferenceIdeal.Hand

end
-- ==== Proof.RefMath.lean ====
/-
  The reference's two bodies read entry by entry over the extended reals, and the accumulation over the four blocks of
  neighbours.

  * The first body's product block at (p, q) is Σ_g x0[p, g] · w0[g, q]; when x0 is the block of rows of x2d that holds
    row r at p, this is the support Σ_g x2d[r, g] · W[g, q].
  * The accumulating body leaves acc[p, q] + Σ_kk a[p, kk] · s[kk, q]; the clearing value is 0; the finishing store adds
    the bias row. Run over the four blocks K = 0, 1, 2, 3 in order, from the cleared accumulator, the output entry is
        ((((0 + P 0) + P 1) + P 2) + P 3) + bias,   P K = Σ_kk adj[n, 512 K + kk] · s[512 K + kk, q].
  Only the reading of a product into a zero accumulator as a plain sum is used; nothing here needs finiteness.
-/
import proofs.«121691_g2000406713105512_pallasbulk_660_2_alg».proof.Proof.Gen.ReferenceIdeal.Skeleton
import proofs.«121691_g2000406713105512_pallasbulk_660_2_alg».proof.Proof.LibDotForms
import proofs.«121691_g2000406713105512_pallasbulk_660_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen
open Idealize.ShloMosaic Idealize.ShloMosaic.ValueIdx
open Cert.GcnSpec (nbr)

/-! ## The support -/

/-- Row r of x2d against column f of W. -/
def supAt (X : FVec Ideal S16384x128 .f32) (W : FVec Ideal S128x128 .f32) (r : Fin 16384) (f : Fin 128) : EReal :=
  ∑ g : Fin 128, X (ix2 r g) * W (ix2 g f)

/-- The support as an array [16384, 128]. -/
def supArr (X : FVec Ideal S16384x128 .f32) (W : FVec Ideal S128x128 .f32) : FVec Ideal S16384x128 .f32 :=
  fun i => supAt X W (i 0) (i 1)

theorem pay_xw_apply (x0 : Vec Ideal S512x128 .f32) (w0 : Vec Ideal S128x128 .f32) (p : Fin 512) (q : Fin 128) :
    k0_pay1 (F := Ideal) x0 w0 (ix2 p q) = ∑ g : Fin 128, x0 (ix2 p g) * w0 (ix2 g q) := by
  unfold k0_pay1
  simp only [shapeCast_self]
  exact Cert.LibDotForms.matmul_plain_prec none x0 w0 p q

/-- The first body's product block, when the block of rows holds row r of x2d at p and the whole of W. -/
theorem sup_apply (X : FVec Ideal S16384x128 .f32) (W : FVec Ideal S128x128 .f32) (x0 : Vec Ideal S512x128 .f32) (w0 : Vec Ideal S128x128 .f32)
    (r : Fin 16384) (p : Fin 512) (q : Fin 128) (hx : ∀ g : Fin 128, x0 (ix2 p g) = X (ix2 r g)) (hw : ∀ g : Fin 128, w0 (ix2 g q) = W (ix2 g q)) :
    k0_pay1 (F := Ideal) x0 w0 (ix2 p q) = supAt X W r q := by
  rw [pay_xw_apply]
  exact Finset.sum_congr rfl fun g _ => by rw [hx g, hw g]

/-! ## The accumulation -/

theorem pay_clear_apply (p : Fin 256) (q : Fin 512) : k1_pay1 (F := Ideal) (ix2 p q) = 0 := by
  unfold k1_pay1
  simp only [shapeCast_self]
  exact Ideal.ofBits_zero_f32

theorem pay_add_apply (acc a : Vec Ideal S256x512 .f32) (s : Vec Ideal S512x512 .f32) (p : Fin 256) (q : Fin 512) :
    k1_pay2 (F := Ideal) acc a s (ix2 p q) = acc (ix2 p q) + ∑ kk : Fin 512, a (ix2 p kk) * s (ix2 kk q) := by
  unfold k1_pay2
  simp only [shapeCast_self]
  exact congrArg (acc (ix2 p q) + ·) (Cert.LibDotForms.matmul_plain_prec none a s p q)

theorem pay_bias_apply (acc : Vec Ideal S256x512 .f32) (bz : Vec Ideal S1x512 .f32) (p : Fin 256) (q : Fin 512) :
    k1_pay3 (F := Ideal) acc bz (ix2 p q) = acc (ix2 p q) + bz (ix2 (0 : Fin 1) q) := by
  unfold k1_pay3
  simp only [shapeCast_self]
  exact congrArg (acc (ix2 p q) + ·) (broadcastTo_1b_ab_apply bz _ p q)

/-- Block K of the neighbour sum of row n against column q of the flattened support. -/
def blockSum (A : FVec Ideal S2048x2048 .f32) (S : FVec Ideal S2048x1024 .f32) (n : Fin 2048) (q : Fin 1024) (K : Fin 4) : EReal :=
  ∑ kk : Fin 512, A (ix2 n (nbr K kk)) * S (ix2 (nbr K kk) q)

/-- The second region's output entry (n, q). -/
def outAt (A : FVec Ideal S2048x2048 .f32) (S : FVec Ideal S2048x1024 .f32) (Bz : FVec Ideal S1x1024 .f32) (n : Fin 2048) (q : Fin 1024) : EReal :=
  ((((0 + blockSum A S n q 0) + blockSum A S n q 1) + blockSum A S n q 2) + blockSum A S n q 3) + Bz (ix2 (0 : Fin 1) q)

/-- The second region's output as an array [2048, 1024]. -/
def outArr (A : FVec Ideal S2048x2048 .f32) (S : FVec Ideal S2048x1024 .f32) (Bz : FVec Ideal S1x1024 .f32) : FVec Ideal S2048x1024 .f32 :=
  fun i => outAt A S Bz (i 0) (i 1)

/-- THE FOUR POINTS OF ONE OUTPUT BLOCK, in order: clear and add block 0, add blocks 1 and 2, add block 3 and store with
    the bias — when the blocks handed to the body are those of adj (rows of n), of the flattened support (column q') and
    of the bias row. -/
theorem chain_apply (A : FVec Ideal S2048x2048 .f32) (S : FVec Ideal S2048x1024 .f32) (Bz : FVec Ideal S1x1024 .f32)
    (a0 a1 a2 a3 : Vec Ideal S256x512 .f32) (s0 s1 s2 s3 : Vec Ideal S512x512 .f32) (bz : Vec Ideal S1x512 .f32)
    (n : Fin 2048) (q' : Fin 1024) (p : Fin 256) (q : Fin 512)
    (ha0 : ∀ kk : Fin 512, a0 (ix2 p kk) = A (ix2 n (nbr 0 kk))) (ha1 : ∀ kk : Fin 512, a1 (ix2 p kk) = A (ix2 n (nbr 1 kk)))
    (ha2 : ∀ kk : Fin 512, a2 (ix2 p kk) = A (ix2 n (nbr 2 kk))) (ha3 : ∀ kk : Fin 512, a3 (ix2 p kk) = A (ix2 n (nbr 3 kk)))
    (hs0 : ∀ kk : Fin 512, s0 (ix2 kk q) = S (ix2 (nbr 0 kk) q')) (hs1 : ∀ kk : Fin 512, s1 (ix2 kk q) = S (ix2 (nbr 1 kk) q'))
    (hs2 : ∀ kk : Fin 512, s2 (ix2 kk q) = S (ix2 (nbr 2 kk) q')) (hs3 : ∀ kk : Fin 512, s3 (ix2 kk q) = S (ix2 (nbr 3 kk) q'))
    (hb : bz (ix2 (0 : Fin 1) q) = Bz (ix2 (0 : Fin 1) q')) :
    k1_pay3 (F := Ideal) (k1_pay2 (k1_pay2 (k1_pay2 (k1_pay2 k1_pay1 a0 s0) a1 s1) a2 s2) a3 s3) bz (ix2 p q) = outAt A S Bz n q' := by
  rw [pay_bias_apply, pay_add_apply, pay_add_apply, pay_add_apply, pay_add_apply, pay_clear_apply]
  unfold outAt blockSum
  simp only [ha0, ha1, ha2, ha3, hs0, hs1, hs2, hs3, hb]

end Cert.ReferenceIdeal.Hand

end
-- ==== Proof.RefValue0.lean ====
/-
  From blocks to the array, first region: after it the support array [16384, 128] holds x2d · W.

  The region runs the body at 32 grid points. At point t the body is handed rows 512 t … 512 t + 511 of x2d and the
  whole of W, and what it stores is written back as rows 512 t … 512 t + 511 of the support. Entry (p, q) of what it
  stores is Σ_g x2d[512 t + p, g] · W[g, q]: every point writes a block of one function of the two arrays, and the 32 row
  blocks cover the array (row r lies in block r / 512). A block's element sits in the array, on each axis, at block
  index × block size + its coordinate in the block.
-/
import proofs.«121691_g2000406713105512_pallasbulk_660_2_alg».proof.Proof.RefRegion0
import proofs.«121691_g2000406713105512_pallasbulk_660_2_alg».proof.Proof.RefMath
import Idealize.ShloMosaic.Lib.Pipeline.Value

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps over the 32 grid points: the rows of x2d and of the support are at row block t, W is whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block of x2d at point t is row 512 t + p of x2d. -/
theorem rows_apply (c : Dev nD) (t : Fin cfg0.N) (p : Fin 512) (g : Fin 128) (r : Fin 16384) (hr : r.val = t.val * 512 + p.val) :
    (blk0 V c 0 t : Vec Ideal S512x128 .f32) (ix2 p g) = (V c main_v0 : S16384x128.Idx → EReal) (ix2 r g) := by
  obtain ⟨e0, e1, -⟩ := idx0 t
  unfold blk0
  rw [View.read_apply]
  show V c main_v0 _ = _
  refine congrArg _ ?_
  funext a; apply Fin.ext
  match a with
  | ⟨0, _⟩ => show win0_0.index t (0 : Fin 2) * 512 + 1 * p.val = r.val; omega
  | ⟨1, _⟩ => show win0_0.index t (1 : Fin 2) * 128 + 1 * g.val = g.val; omega

/-- The second window's block is the whole of W. -/
theorem weights_apply (c : Dev nD) (t : Fin cfg0.N) (g q : Fin 128) :
    (blk0 V c 1 t : Vec Ideal S128x128 .f32) (ix2 g q) = (V c main_arg2 : S128x128.Idx → EReal) (ix2 g q) := by
  obtain ⟨-, -, e2, e3, -⟩ := idx0 t
  unfold blk0
  rw [View.read_apply]
  show V c main_arg2 _ = _
  refine congrArg _ ?_
  funext a; apply Fin.ext
  match a with
  | ⟨0, _⟩ => show win0_1.index t (0 : Fin 2) * 128 + 1 * g.val = g.val; omega
  | ⟨1, _⟩ => show win0_1.index t (1 : Fin 2) * 128 + 1 * q.val = q.val; omega

/-- What point t writes back is block t of the support. -/
theorem flushed0_eq (c : Dev nD) (t : Fin cfg0.N) :
    (data0 V c).flushed 2 t = ((cfg0.win 2).blk t).view.read (Elt Ideal) (supArr (V c main_v0) (V c main_arg2)) := by
  show (cfg0.win 2).cut (grid0.coords t) ((data0 V c).after 2 t) = _
  rw [data0_after2]
  unfold supBlock
  rw [View.canon_unit_zero zero2]
  simp only [View.ld_unit_zero (S := S512x128) zero2, View.ld_unit_zero (S := S128x128) zero2]
  obtain ⟨-, -, -, -, e4, e5⟩ := idx0 t
  have hN : cfg0.N = 32 := N_0
  have ht := t.isLt
  refine funext fun (j : S512x128.Idx) => ?_
  have hj0 : (j 0).val < 512 := (j 0).isLt
  have hj1 : (j 1).val < 128 := (j 1).isLt
  obtain ⟨p, q, rfl⟩ : ∃ (p : Fin 512) (q : Fin 128), j = ix2 p q := ⟨j 0, j 1, eq_ix2 j⟩
  rw [View.read_apply]
  have e : ((cfg0.win 2).blk t).view.emb (ix2 p q) = (ix2 (⟨t.val * 512 + p.val, by omega⟩ : Fin 16384) q : S16384x128.Idx) := by
    funext a; apply Fin.ext
    match a with
    | ⟨0, _⟩ => show win0_2.index t (0 : Fin 2) * 512 + 1 * p.val = t.val * 512 + p.val; omega
    | ⟨1, _⟩ => show win0_2.index t (1 : Fin 2) * 128 + 1 * q.val = q.val; omega
  rw [e]
  exact sup_apply (V c main_v0) (V c main_arg2) (blk0 V c 0 t) (blk0 V c 1 t) _ p q
    (fun g => rows_apply V c t p g _ rfl) (fun g => weights_apply V c t g q)

theorem mem_blk0 (t : Fin cfg0.N) (i : S16384x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v1).slice (win0_2.rect t)).set ↔ _
  rw [View.set_slice_whole, Rect.mem_set_unit]
  exact Iff.rfl

/-- The 32 row blocks cover the support: row r lies in the block of point r / 512. -/
theorem cover0 (i : S16384x128.Idx) : ∃ t : Fin cfg0.N, (cfg0.win 2).flush t = true ∧ i ∈ ((cfg0.win 2).blk t).view.set := by
  have hN : cfg0.N = 32 := N_0
  have hi0 : (i 0).val < 16384 := (i 0).isLt
  have hi1 : (i 1).val < 128 := (i 1).isLt
  obtain ⟨t, ht⟩ : ∃ t : Fin cfg0.N, t.val = (i 0).val / 512 := ⟨⟨(i 0).val / 512, by omega⟩, rfl⟩
  obtain ⟨-, -, -, -, e4, e5⟩ := idx0 t
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- After the first region the support array is x2d · W. -/
theorem final0 (c : Dev nD) : (data0 V c).arrAt 2 cfg0.N = supArr (V c main_v0) (V c main_arg2) :=
  (data0 V c).arrAt_eq_of_cover 2 (supArr (V c main_v0) (V c main_arg2)) (fun t _ => flushed0_eq V c t) cover0

end Cert.ReferenceIdeal.Hand

end
-- ==== Proof.RefPieces.lean ====
/-
  What the three cases of the accumulating body leave, as values of the blocks they were handed.

  With acc the accumulator as the point finds it, a the block of adj and s the block of the support:
    k = 0      leaves  (0-splat + a · s)        in the accumulator,
    k = 1, 2   leave   (acc + a · s)            in the accumulator,
    k = 3      leaves  (acc + a · s)            in the accumulator and (acc + a · s) + bias in the output block.
  Each is the body's own arithmetic (the payloads) applied to the loads; a load of the accumulator after a store that
  covered it reads that store's value.
-/
import proofs.«121691_g2000406713105512_pallasbulk_660_2_alg».proof.Proof.RefRegion1
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin2 : (![0, 0] : Fin 2 → Nat) = fun _ => 0 := funext fun a => by fin_cases a <;> rfl

variable (c : Dev nD) (i : grid1.Coords) (arg3 : Memref sig .tc .vmem S256x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole)

theorem accInit_eq (hc0 : condInit i) (hc1 : ¬condLast i) (x0 : Vec F S256x512 .f32) (x1 : Vec F S512x512 .f32) (x2 : Vec F S1x512 .f32) :
    accInit c i arg3 harg3 arg4 harg4 arg5 harg5 arg6 harg6 arg7 harg7 hc0 hc1 x0 x1 x2 = k1_pay2 (k1_pay1 (F := F)) x0 x1 := by
  unfold accInit
  rw [View.read_writes_eq_canon _ _ _ (accCover_init c i arg3 harg3 arg4 harg4 arg5 harg5 arg6 harg6 arg7 harg7 hc0 hc1 x0 x1 x2)]
  unfold runInit
  dsimp only
  sl_unfold_words
  rw [View.canon_cons_unit_zero (S := S256x512) origin2, View.readCov_unit_zero (S := S256x512) _ origin2]
  simp only [View.readAt_eq_ld, harg3.read_unread, harg4.read_unread, View.ld_unit_zero (S := S256x512) origin2, View.ld_unit_zero (S := S512x512) origin2]

theorem accMid_eq (hc0 : ¬condInit i) (hc1 : ¬condLast i) (x0 : Vec F S256x512 .f32) (x1 : Vec F S512x512 .f32) (x2 : Vec F S1x512 .f32) (xs : Vec F S256x512 .f32) :
    accMid c i arg3 harg3 arg4 harg4 arg5 harg5 arg6 harg6 arg7 harg7 hc0 hc1 x0 x1 x2 xs = k1_pay2 xs x0 x1 := by
  unfold accMid
  rw [View.read_writes_eq_canon _ _ _ (accCover_mid c i arg3 harg3 arg4 harg4 arg5 harg5 arg6 harg6 arg7 harg7 hc0 hc1 x0 x1 x2 xs)]
  unfold runMid
  dsimp only
  sl_unfold_words
  rw [View.canon_unit_zero (S := S256x512) origin2]
  simp only [View.readAt_eq_ld, harg3.read_unread, harg4.read_unread, harg7.read_unread, View.ld_unit_zero (S := S256x512) origin2, View.ld_unit_zero (S := S512x512) origin2]

theorem accLast_eq (hc0 : ¬condInit i) (hc1 : condLast i) (x0 : Vec F S256x512 .f32) (x1 : Vec F S512x512 .f32) (x2 : Vec F S1x512 .f32) (xs : Vec F S256x512 .f32) :
    accLast c i arg3 harg3 arg4 harg4 arg5 harg5 arg6 harg6 arg7 harg7 hc0 hc1 x0 x1 x2 xs = k1_pay2 xs x0 x1 := by
  unfold accLast
  rw [View.read_writes_eq_canon _ _ _ (accCover_last c i arg3 harg3 arg4 harg4 arg5 harg5 arg6 harg6 arg7 harg7 hc0 hc1 x0 x1 x2 xs)]
  unfold runLast
  dsimp only
  sl_unfold_words
  rw [View.canon_unit_zero (S := S256x512) origin2]
  simp only [View.readAt_eq_ld, harg3.read_unread, harg4.read_unread, harg7.read_unread, View.ld_unit_zero (S := S256x512) origin2, View.ld_unit_zero (S := S512x512) origin2]

theorem outLast_eq (hc0 : ¬condInit i) (hc1 : condLast i) (x0 : Vec F S256x512 .f32) (x1 : Vec F S512x512 .f32) (x2 : Vec F S1x512 .f32) (xs : Vec F S256x512 .f32) :
    outLast c i arg3 harg3 arg4 harg4 arg5 harg5 arg6 harg6 arg7 harg7 hc0 hc1 x0 x1 x2 xs = k1_pay3 (k1_pay2 xs x0 x1) x2 := by
  unfold outLast
  rw [View.read_writes_eq_canon _ _ _ (outCover_last c i arg3 harg3 arg4 harg4 arg5 harg5 arg6 harg6 arg7 harg7 hc0 hc1 x0 x1 x2 xs)]
  unfold runLast
  dsimp only
  sl_unfold_words
  rw [View.canon_unit_zero (S := S256x512) origin2, View.readCov_unit_zero (S := S256x512) _ origin2]
  simp only [View.readAt_eq_ld, harg3.read_unread, harg4.read_unread, harg5.read_unread, harg7.read_unread, View.ld_unit_zero (S := S256x512) origin2, View.ld_unit_zero (S := S512x512) origin2, View.ld_unit_zero (S := S1x512) origin2]

end Cert.ReferenceIdeal.Hand

end
-- ==== Proof.RefValue1.lean ====
/-
  From blocks to the array, second region: after it the output array [2048, 1024] holds adj · s_flat + bias row, the
  neighbour sum taken block by block.

  The grid is [8, 2, 4]: point t = (8 i + 4 j) + K handles output block (i, j) and neighbour block K. The four points of
  one output block run in order K = 0, 1, 2, 3; the accumulator goes from the cleared value through the four block
  products, and the last point stores accumulator + bias, which is written back as rows 256 i …, columns 512 j … of the
  output. So each writing point writes a block of one function of the three arrays, and the 16 blocks cover the array.
-/
import proofs.«121691_g2000406713105512_pallasbulk_660_2_alg».proof.Proof.RefRegion1Body
import proofs.«121691_g2000406713105512_pallasbulk_660_2_alg».proof.Proof.RefPieces
import proofs.«121691_g2000406713105512_pallasbulk_660_2_alg».proof.Proof.RefMath
import Idealize.ShloMosaic.Lib.Pipeline.Value

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)

open Cert.GcnSpec (nbr)

variable (V : (c : Dev nD) → (b : Ref sig .tc) → Buf (Elt Ideal) ((c : Thread nD τ).loc b))

/-- The printed index maps over the 64 grid points, with i = t / 8, j = (t / 4) mod 2, K = t mod 4. -/
theorem idx1 : ∀ t : Fin cfg1.N,
    win1_0.index t (0 : Fin 2) = t.val / 8 ∧ win1_0.index t (1 : Fin 2) = t.val % 4
    ∧ win1_1.index t (0 : Fin 2) = t.val % 4 ∧ win1_1.index t (1 : Fin 2) = (t.val / 4) % 2
    ∧ win1_2.index t (0 : Fin 2) = 0 ∧ win1_2.index t (1 : Fin 2) = (t.val / 4) % 2
    ∧ win1_3.index t (0 : Fin 2) = t.val / 8 ∧ win1_3.index t (1 : Fin 2) = (t.val / 4) % 2 :=
  (by decide +kernel : ∀ t : Fin grid1.N, _)

/-- The block of adj at point t: rows 256 i …, neighbours 512 K …. -/
theorem adjBlk_apply (c : Dev nD) (t : Fin cfg1.N) (p : Fin 256) (kk : Fin 512) (n k : Fin 2048)
    (hn : n.val = t.val / 8 * 256 + p.val) (hk : k.val = t.val % 4 * 512 + kk.val) :
    (blk1 V c 0 t : Vec Ideal S256x512 .f32) (ix2 p kk) = (V c main_arg1 : S2048x2048.Idx → EReal) (ix2 n k) := by
  obtain ⟨e0, e1, -⟩ := idx1 t
  unfold blk1
  rw [View.read_apply]
  show V c main_arg1 _ = _
  refine congrArg _ ?_
  funext a; apply Fin.ext
  match a with
  | ⟨0, _⟩ => show win1_0.index t (0 : Fin 2) * 256 + 1 * p.val = n.val; omega
  | ⟨1, _⟩ => show win1_0.index t (1 : Fin 2) * 512 + 1 * kk.val = k.val; omega

/-- The block of the flattened support at point t: neighbours 512 K …, columns 512 j …. -/
theorem supBlk_apply (c : Dev nD) (t : Fin cfg1.N) (kk : Fin 512) (q : Fin 512) (k : Fin 2048) (q' : Fin 1024)
    (hk : k.val = t.val % 4 * 512 + kk.val) (hq : q'.val = t.val / 4 % 2 * 512 + q.val) :
    (blk1 V c 1 t : Vec Ideal S512x512 .f32) (ix2 kk q) = (V c main_v2 : S2048x1024.Idx → EReal) (ix2 k q') := by
  obtain ⟨-, -, e2, e3, -⟩ := idx1 t
  unfold blk1
  rw [View.read_apply]
  show V c main_v2 _ = _
  refine congrArg _ ?_
  funext a; apply Fin.ext
  match a with
  | ⟨0, _⟩ => show win1_1.index t (0 : Fin 2) * 512 + 1 * kk.val = k.val; omega
  | ⟨1, _⟩ => show win1_1.index t (1 : Fin 2) * 512 + 1 * q.val = q'.val; omega

/-- The block of the bias row at point t: columns 512 j …. -/
theorem biasBlk_apply (c : Dev nD) (t : Fin cfg1.N) (q : Fin 512) (q' : Fin 1024) (hq : q'.val = t.val / 4 % 2 * 512 + q.val) :
    (blk1 V c 2 t : Vec Ideal S1x512 .f32) (ix2 (0 : Fin 1) q) = (V c main_v6 : S1x1024.Idx → EReal) (ix2 (0 : Fin 1) q') := by
  obtain ⟨-, -, -, -, e4, e5, -⟩ := idx1 t
  unfold blk1
  rw [View.read_apply]
  show V c main_v6 _ = _
  refine congrArg _ ?_
  funext a; apply Fin.ext
  match a with
  | ⟨0, _⟩ => show win1_2.index t (0 : Fin 2) * 1 + 1 * 0 = 0; omega
  | ⟨1, _⟩ => show win1_2.index t (1 : Fin 2) * 512 + 1 * q.val = q'.val; omega

/-! ## The accumulator along the four points of one output block -/

theorem outsAt1_congr (c : Dev nD) {a b : ℕ} (h : a = b) (ha : a < cfg1.N) (hb : b < cfg1.N) :
    outsAt1 V c a ha = outsAt1 V c b hb := by subst h; rfl

/-- After a clearing point the accumulator is 0-splat + the point's block product. -/
theorem acc_init (c : Dev nD) (t : Fin cfg1.N) (h0 : t.val % 4 = 0) :
    (outsAt1 V c t.val t.isLt).2 = k1_pay2 (F := Ideal) (k1_pay1 (F := Ideal)) (blk1 V c 0 t) (blk1 V c 1 t) := by
  rw [outsAt1_init V c t h0]
  dsimp only
  unfold stepInit
  exact accInit_eq (F := Ideal) c (grid1.coords t) (ms1_0 t) (hs1_0 t) (ms1_1 t) (hs1_1 t) (ms1_2 t) (hs1_2 t) (ms1_3 t) (hs1_3 t) accM (Memref.isWhole_whole _) ((condInit_iff t).mpr h0) (fun h => by have := (condLast_iff t).mp h; omega)
    (blk1 V c 0 t) (blk1 V c 1 t) (blk1 V c 2 t)

/-- After an adding point (K = 1, 2) the accumulator is that of the point before + the point's block product. -/
theorem acc_mid (c : Dev nD) (t' t : Fin cfg1.N) (ht : t.val = t'.val + 1) (h0 : ¬t.val % 4 = 0) (h1 : ¬t.val % 4 = 3) :
    (outsAt1 V c t.val t.isLt).2 = k1_pay2 (F := Ideal) (outsAt1 V c t'.val t'.isLt).2 (blk1 V c 0 t) (blk1 V c 1 t) := by
  rw [outsAt1_mid V c t h0 h1, outsAt1_congr V c (by omega : t.val - 1 = t'.val) _ t'.isLt]
  dsimp only
  unfold stepMid
  exact accMid_eq (F := Ideal) c (grid1.coords t) (ms1_0 t) (hs1_0 t) (ms1_1 t) (hs1_1 t) (ms1_2 t) (hs1_2 t) (ms1_3 t) (hs1_3 t) accM (Memref.isWhole_whole _) (fun h => h0 ((condInit_iff t).mp h)) (fun h => h1 ((condLast_iff t).mp h))
    (blk1 V c 0 t) (blk1 V c 1 t) (blk1 V c 2 t) (outsAt1 V c t'.val t'.isLt).2

/-- At the storing point (K = 3) the output block is (accumulator of the point before + block product) + bias. -/
theorem out_last (c : Dev nD) (t' t : Fin cfg1.N) (ht : t.val = t'.val + 1) (h0 : ¬t.val % 4 = 0) (h1 : t.val % 4 = 3) :
    (outsAt1 V c t.val t.isLt).1 = k1_pay3 (F := Ideal) (k1_pay2 (outsAt1 V c t'.val t'.isLt).2 (blk1 V c 0 t) (blk1 V c 1 t)) (blk1 V c 2 t) := by
  rw [outsAt1_last V c t h0 h1, outsAt1_congr V c (by omega : t.val - 1 = t'.val) _ t'.isLt]
  dsimp only
  unfold stepLastOut
  exact outLast_eq (F := Ideal) c (grid1.coords t) (ms1_0 t) (hs1_0 t) (ms1_1 t) (hs1_1 t) (ms1_2 t) (hs1_2 t) (ms1_3 t) (hs1_3 t) accM (Memref.isWhole_whole _) (fun h => h0 ((condInit_iff t).mp h)) ((condLast_iff t).mpr h1)
    (blk1 V c 0 t) (blk1 V c 1 t) (blk1 V c 2 t) (outsAt1 V c t'.val t'.isLt).2

/-- The output block stored at a point with K = 3, from the blocks of its four points. -/
theorem out_chain (c : Dev nD) (t0 t1 t2 t3 : Fin cfg1.N) (h01 : t1.val = t0.val + 1) (h12 : t2.val = t1.val + 1) (h23 : t3.val = t2.val + 1)
    (h0 : t0.val % 4 = 0) :
    (outsAt1 V c t3.val t3.isLt).1 = k1_pay3 (F := Ideal) (k1_pay2 (k1_pay2 (k1_pay2 (k1_pay2 (k1_pay1 (F := Ideal)) (blk1 V c 0 t0) (blk1 V c 1 t0)) (blk1 V c 0 t1) (blk1 V c 1 t1)) (blk1 V c 0 t2) (blk1 V c 1 t2)) (blk1 V c 0 t3) (blk1 V c 1 t3)) (blk1 V c 2 t3) := by
  rw [out_last V c t2 t3 h23 (by omega) (by omega), acc_mid V c t1 t2 h12 (by omega) (by omega), acc_mid V c t0 t1 h01 (by omega) (by omega), acc_init V c t0 h0]

/-! ## The output array -/

/-- What a storing point writes back is its block of the output array. -/
theorem flushed1_eq (c : Dev nD) (t : Fin cfg1.N) (hf : (cfg1.win 3).flush t = true) :
    (data1 V c).flushed 3 t = ((cfg1.win 3).blk t).view.read (Elt Ideal) (outArr (V c main_arg1) (V c main_v2) (V c main_v6)) := by
  have h3 : t.val % 4 = 3 := (flush1_3 t).mp hf
  have hN : cfg1.N = 64 := N_1
  have ht := t.isLt
  show (cfg1.win 3).cut (grid1.coords t) ((data1 V c).after 3 t) = _
  rw [data1_after3]
  obtain ⟨-, -, -, -, -, -, e6, e7⟩ := idx1 t
  refine funext fun (j : S256x512.Idx) => ?_
  have hj0 : (j 0).val < 256 := (j 0).isLt
  have hj1 : (j 1).val < 512 := (j 1).isLt
  obtain ⟨p, q, rfl⟩ : ∃ (p : Fin 256) (q : Fin 512), j = ix2 p q := ⟨j 0, j 1, eq_ix2 j⟩
  rw [View.read_apply]
  have e : ((cfg1.win 3).blk t).view.emb (ix2 p q)
      = (ix2 (⟨t.val / 8 * 256 + p.val, by omega⟩ : Fin 2048) (⟨t.val / 4 % 2 * 512 + q.val, by omega⟩ : Fin 1024) : S2048x1024.Idx) := by
    funext a; apply Fin.ext
    match a with
    | ⟨0, _⟩ => show win1_3.index t (0 : Fin 2) * 256 + 1 * p.val = t.val / 8 * 256 + p.val; omega
    | ⟨1, _⟩ => show win1_3.index t (1 : Fin 2) * 512 + 1 * q.val = t.val / 4 % 2 * 512 + q.val; omega
  rw [e]
  -- the four points of this output block
  let t0 : Fin cfg1.N := ⟨t.val - 3, by omega⟩
  let t1 : Fin cfg1.N := ⟨t.val - 2, by omega⟩
  let t2 : Fin cfg1.N := ⟨t.val - 1, by omega⟩
  have hc := out_chain V c t0 t1 t2 t (by show t.val - 2 = t.val - 3 + 1; omega) (by show t.val - 1 = t.val - 2 + 1; omega)
    (by show t.val = t.val - 1 + 1; omega) (by show (t.val - 3) % 4 = 0; omega)
  refine (congrFun hc (ix2 p q)).trans ?_
  show _ = outAt (V c main_arg1) (V c main_v2) (V c main_v6) _ _
  refine chain_apply (V c main_arg1) (V c main_v2) (V c main_v6) _ _ _ _ _ _ _ _ _ _ _ p q ?_ ?_ ?_ ?_ ?_ ?_ ?_ ?_ ?_
  · exact fun kk => adjBlk_apply V c t0 p kk _ _ (by show t.val / 8 * 256 + p.val = (t.val - 3) / 8 * 256 + p.val; omega) (by show 0 * 512 + kk.val = (t.val - 3) % 4 * 512 + kk.val; omega)
  · exact fun kk => adjBlk_apply V c t1 p kk _ _ (by show t.val / 8 * 256 + p.val = (t.val - 2) / 8 * 256 + p.val; omega) (by show 1 * 512 + kk.val = (t.val - 2) % 4 * 512 + kk.val; omega)
  · exact fun kk => adjBlk_apply V c t2 p kk _ _ (by show t.val / 8 * 256 + p.val = (t.val - 1) / 8 * 256 + p.val; omega) (by show 2 * 512 + kk.val = (t.val - 1) % 4 * 512 + kk.val; omega)
  · exact fun kk => adjBlk_apply V c t p kk _ _ rfl (by show 3 * 512 + kk.val = t.val % 4 * 512 + kk.val; omega)
  · exact fun kk => supBlk_apply V c t0 kk q _ _ (by show 0 * 512 + kk.val = (t.val - 3) % 4 * 512 + kk.val; omega) (by show t.val / 4 % 2 * 512 + q.val = (t.val - 3) / 4 % 2 * 512 + q.val; omega)
  · exact fun kk => supBlk_apply V c t1 kk q _ _ (by show 1 * 512 + kk.val = (t.val - 2) % 4 * 512 + kk.val; omega) (by show t.val / 4 % 2 * 512 + q.val = (t.val - 2) / 4 % 2 * 512 + q.val; omega)
  · exact fun kk => supBlk_apply V c t2 kk q _ _ (by show 2 * 512 + kk.val = (t.val - 1) % 4 * 512 + kk.val; omega) (by show t.val / 4 % 2 * 512 + q.val = (t.val - 1) / 4 % 2 * 512 + q.val; omega)
  · exact fun kk => supBlk_apply V c t kk q _ _ (by show 3 * 512 + kk.val = t.val % 4 * 512 + kk.val; omega) rfl
  · exact biasBlk_apply V c t q _ rfl

theorem mem_blk1 (t : Fin cfg1.N) (i : S2048x1024.Idx) :
    i ∈ ((cfg1.win 3).blk t).view.set ↔ ∀ a : Fin 2, win1_3.index t a * S256x512.size a ≤ (i a).val ∧ (i a).val < win1_3.index t a * S256x512.size a + S256x512.size a := by
  show i ∈ ((View.whole main_v7).slice (win1_3.rect t)).set ↔ _
  rw [View.set_slice_whole, Rect.mem_set_unit]
  exact Iff.rfl

/-- The 16 output blocks, each written back at its point with K = 3, cover the output array. -/
theorem cover1 (i : S2048x1024.Idx) : ∃ t : Fin cfg1.N, (cfg1.win 3).flush t = true ∧ i ∈ ((cfg1.win 3).blk t).view.set := by
  have hN : cfg1.N = 64 := N_1
  have hi0 : (i 0).val < 2048 := (i 0).isLt
  have hi1 : (i 1).val < 1024 := (i 1).isLt
  obtain ⟨t, ht⟩ : ∃ t : Fin cfg1.N, t.val = (i 0).val / 256 * 8 + (i 1).val / 512 * 4 + 3 := ⟨⟨(i 0).val / 256 * 8 + (i 1).val / 512 * 4 + 3, by omega⟩, rfl⟩
  obtain ⟨-, -, -, -, -, -, e6, e7⟩ := idx1 t
  refine ⟨t, (flush1_3 t).mpr (by omega), ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 512 ≤ (i 1).val ∧ (i 1).val < win1_3.index t (1 : Fin 2) * 512 + 512; omega

/-- After the second region the output array is adj · s_flat + bias row, block by block. -/
theorem final1 (c : Dev nD) : (data1 V c).arrAt 3 cfg1.N = outArr (V c main_arg1) (V c main_v2) (V c main_v6) :=
  (data1 V c).arrAt_eq_of_cover 3 (outArr (V c main_arg1) (V c main_v2) (V c main_v6)) (fun t hf => flushed1_eq V c t hf) cover1

end Cert.ReferenceIdeal.Hand

end
-- ==== Proof.RefValue.lean ====
/-
  The reference's result, read through its whole run.

  Folding the contents from the launch memory: x is recast to x2d [16384, 128] (row 8 k + s is node k, slot s); the first
  region leaves the support x2d · W; recast to [2048, 1024] its entry (k, 128 s + f) is the support of node k, slot s at
  feature f; the bias is repeated once per slot as a row of 1024; the second region leaves adj · s_flat + bias row with
  the neighbour sum taken in four blocks; recast to [2048, 8, 128] that is the reference arrangement of the graph
  convolution. No argument array is written on the way.
-/
import proofs.«121691_g2000406713105512_pallasbulk_660_2_alg».proof.Proof.RefRun
import proofs.«121691_g2000406713105512_pallasbulk_660_2_alg».proof.Proof.RefValue0
import proofs.«121691_g2000406713105512_pallasbulk_660_2_alg».proof.Proof.RefValue1
import proofs.«121691_g2000406713105512_pallasbulk_660_2_alg».proof.Proof.Gen.ReferenceIdeal.Regions
import proofs.«121691_g2000406713105512_pallasbulk_660_2_alg».proof.Proof.Spec
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)

open Cert.GcnSpec (nbr sup refBlock refAt refArr)

variable (m : (ℓ : Loc nD τ sig) → Buf (Elt Ideal) ℓ)

/-! ## What the host stretches leave alone -/

theorem keep0 (W : Valuation τ sig (Elt Ideal)) (r : Ref sig .tc) (h : r ∉ hostOps0_W) : StableHlo.after hostOps0 W r = W r :=
  StableHlo.after_of_writes_sub hostOps0 _ hostOps0_writes h
theorem keep1 (W : Valuation τ sig (Elt Ideal)) (r : Ref sig .tc) (h : r ∉ hostOps1_W) : StableHlo.after hostOps1 W r = W r :=
  StableHlo.after_of_writes_sub hostOps1 _ hostOps1_writes h
theorem keep2 (W : Valuation τ sig (Elt Ideal)) (r : Ref sig .tc) (h : r ∉ hostOps2_W) : StableHlo.after hostOps2 W r = W r :=
  StableHlo.after_of_writes_sub hostOps2 _ hostOps2_writes h

/-! ## The argument arrays along the run -/

theorem ent1_arg2 (c : Dev nD) : ent1 m c main_arg2 = m ((c : Thread nD τ).loc main_arg2) :=
  (keep0 _ main_arg2 (by decide)).trans rfl

theorem ent2_arg3 (c : Dev nD) : ent2 m c main_arg3 = m ((c : Thread nD τ).loc main_arg3) :=
  (cont2_of_ne m c main_arg3 (by exact (by decide : ∀ w, Pipeline.arrRef spec0 w ≠ main_arg3))).trans ((keep0 _ main_arg3 (by decide)).trans rfl)

theorem ent3_arg1 (c : Dev nD) : ent3 m c main_arg1 = m ((c : Thread nD τ).loc main_arg1) :=
  (keep1 _ main_arg1 (by decide)).trans ((cont2_of_ne m c main_arg1 (by exact (by decide : ∀ w, Pipeline.arrRef spec0 w ≠ main_arg1))).trans
    ((keep0 _ main_arg1 (by decide)).trans rfl))

theorem end_arg0 (c : Dev nD) : cont5 m c main_arg0 = m ((c : Thread nD τ).loc main_arg0) :=
  (keep2 _ main_arg0 (by decide)).trans ((cont4_of_ne m c main_arg0 (by exact (by decide : ∀ w, Pipeline.arrRef spec1 w ≠ main_arg0))).trans
    ((keep1 _ main_arg0 (by decide)).trans ((cont2_of_ne m c main_arg0 (by exact (by decide : ∀ w, Pipeline.arrRef spec0 w ≠ main_arg0))).trans
      ((keep0 _ main_arg0 (by decide)).trans rfl))))

theorem end_arg1 (c : Dev nD) : cont5 m c main_arg1 = m ((c : Thread nD τ).loc main_arg1) :=
  (keep2 _ main_arg1 (by decide)).trans ((cont4_arr m c 0).trans (((data1 (ent3 m) c).arrAt_in 0 rfl _).trans
    ((data1_A (ent3 m) c 0).trans (ent3_arg1 m c))))

theorem end_arg2 (c : Dev nD) : cont5 m c main_arg2 = m ((c : Thread nD τ).loc main_arg2) :=
  (keep2 _ main_arg2 (by decide)).trans ((cont4_of_ne m c main_arg2 (by exact (by decide : ∀ w, Pipeline.arrRef spec1 w ≠ main_arg2))).trans
    ((keep1 _ main_arg2 (by decide)).trans ((cont2_arr m c 1).trans (((data0 (ent1 m) c).arrAt_in 1 rfl _).trans
      ((data0_A (ent1 m) c 1).trans (ent1_arg2 m c))))))

theorem end_arg3 (c : Dev nD) : cont5 m c main_arg3 = m ((c : Thread nD τ).loc main_arg3) :=
  (keep2 _ main_arg3 (by decide)).trans ((cont4_of_ne m c main_arg3 (by exact (by decide : ∀ w, Pipeline.arrRef spec1 w ≠ main_arg3))).trans
    ((keep1 _ main_arg3 (by decide)).trans (ent2_arg3 m c)))

/-! ## The computed arrays along the run -/

theorem ent1_v0 (c : Dev nD) : ent1 m c main_v0 = shapeCast S16384x128 (m ((c : Thread nD τ).loc main_arg0)) shapeCasts_S2048x8x128_S16384x128 := by
  show StableHlo.after hostOps0 (cont0 m c) (Proc.devRef .tc main_v0) = _
  after_results
  rfl

theorem ent2_v1 (c : Dev nD) : ent2 m c main_v1 = supArr (ent1 m c main_v0) (ent1 m c main_arg2) :=
  (cont2_arr m c 2).trans (final0 (ent1 m) c)

theorem ent3_v2 (c : Dev nD) : ent3 m c main_v2 = shapeCast S2048x1024 (ent2 m c main_v1) shapeCasts_S16384x128_S2048x1024 := by
  show StableHlo.after hostOps1 (cont2 m c) (Proc.devRef .tc main_v2) = _
  after_results
  rfl

theorem ent3_v6 (c : Dev nD) : ent3 m c main_v6 = shapeCast S1x1024 (shapeCast S1024 (broadcastInDim S8x128 ![0, 1] bcast_S1x128_S8x128_0_1 (shapeCast S1x128 (ent2 m c main_arg3) shapeCasts_S128_S1x128)) shapeCasts_S8x128_S1024) shapeCasts_S1024_S1x1024 := by
  show StableHlo.after hostOps1 (cont2 m c) (Proc.devRef .tc main_v6) = _
  after_results
  rfl

theorem ent4_v7 (c : Dev nD) : ent4 m c main_v7 = outArr (ent3 m c main_arg1) (ent3 m c main_v2) (ent3 m c main_v6) :=
  (cont4_arr m c 3).trans (final1 (ent3 m) c)

theorem end_v8 (c : Dev nD) : cont5 m c main_v8 = shapeCast S2048x8x128 (ent4 m c main_v7) shapeCasts_S2048x1024_S2048x8x128 := by
  show StableHlo.after hostOps2 (cont4 m c) (Proc.devRef .tc main_v8) = _
  after_results
  rfl

/-! ## Read entry by entry -/

/-- Position 128 s + f of the flattened (slot, feature) axis. -/
def flatPos (s : Fin 8) (f : Fin 128) : Fin 1024 := ⟨s.val * 128 + f.val, by have := s.isLt; have := f.isLt; omega⟩
/-- Row 8 k + s of x2d. -/
def rowPos (k : Fin 2048) (s : Fin 8) : Fin 16384 := ⟨k.val * 8 + s.val, by have := k.isLt; have := s.isLt; omega⟩

/-- Entry (k, 128 s + f) of the flattened support is the support of node k, slot s at feature f. -/
theorem flat_sup (c : Dev nD) (k : Fin 2048) (s : Fin 8) (f : Fin 128) :
    (ent3 m c main_v2 : S2048x1024.Idx → EReal) (ix2 k (flatPos s f))
      = sup (m ((c : Thread nD τ).loc main_arg0)) (m ((c : Thread nD τ).loc main_arg2)) k s f := by
  rw [ent3_v2]
  refine (shapeCast_apply _ _ (ix2 k (flatPos s f)) (ix2 (rowPos k s) f) ?_).trans ?_
  · rw [Shape.rowMajor_val_two, Shape.rowMajor_val_two]
    show (k.val * 8 + s.val) * 128 + f.val = k.val * 1024 + (s.val * 128 + f.val)
    omega
  rw [ent2_v1]
  show supAt (ent1 m c main_v0) (ent1 m c main_arg2) (rowPos k s) f = _
  unfold supAt sup
  refine Finset.sum_congr rfl fun g _ => ?_
  rw [ent1_arg2, ent1_v0]
  refine congrArg (· * _) ?_
  refine shapeCast_apply _ _ (ix2 (rowPos k s) g) (ix3 k s g) ?_
  rw [Shape.rowMajor_val_two, Shape.rowMajor_val_three]
  rfl

/-- Position 128 s + f of the bias row is the bias at feature f. -/
theorem bias_row (c : Dev nD) (s : Fin 8) (f : Fin 128) :
    (ent3 m c main_v6 : S1x1024.Idx → EReal) (ix2 (0 : Fin 1) (flatPos s f)) = (m ((c : Thread nD τ).loc main_arg3) : S128.Idx → EReal) (ix1 f) := by
  rw [ent3_v6, ent2_arg3]
  refine (shapeCast_apply _ _ (ix2 (0 : Fin 1) (flatPos s f)) (ix1 (flatPos s f)) ?_).trans ?_
  · rw [Shape.rowMajor_val_two, Shape.rowMajor_val_one]
    show (flatPos s f).val = 0 * 1024 + (flatPos s f).val
    omega
  refine (shapeCast_apply _ _ (ix1 (flatPos s f)) (ix2 s f) ?_).trans ?_
  · rw [Shape.rowMajor_val_two, Shape.rowMajor_val_one]
    rfl
  refine (broadcastInDim_apply _ _ _ (ix2 s f) (ix2 (0 : Fin 1) f) ?_).trans ?_
  · intro a
    match a with
    | ⟨0, _⟩ => rfl
    | ⟨1, _⟩ => rfl
  refine shapeCast_apply _ _ (ix2 (0 : Fin 1) f) (ix1 f) ?_
  rw [Shape.rowMajor_val_two, Shape.rowMajor_val_one]
  show f.val = 0 * 128 + f.val
  omega

/-- THE RESULT: the array the reference returns is the reference arrangement of the graph convolution. -/
theorem end_result (c : Dev nD) :
    cont5 m c main_v8 = refArr (m ((c : Thread nD τ).loc main_arg0)) (m ((c : Thread nD τ).loc main_arg1))
      (m ((c : Thread nD τ).loc main_arg2)) (m ((c : Thread nD τ).loc main_arg3)) := by
  rw [end_v8]
  refine funext fun (i : S2048x8x128.Idx) => ?_
  obtain ⟨n, s, f, rfl⟩ : ∃ (n : Fin 2048) (s : Fin 8) (f : Fin 128), i = ix3 n s f := ⟨i 0, i 1, i 2, eq_ix3 i⟩
  refine (shapeCast_apply _ _ (ix3 n s f) (ix2 n (flatPos s f)) ?_).trans ?_
  · rw [Shape.rowMajor_val_two, Shape.rowMajor_val_three]
    show n.val * 1024 + (s.val * 128 + f.val) = (n.val * 8 + s.val) * 128 + f.val
    omega
  rw [ent4_v7]
  show outAt (ent3 m c main_arg1) (ent3 m c main_v2) (ent3 m c main_v6) n (flatPos s f) = refAt _ _ _ _ n s f
  have hS : ∀ k : Fin 2048, (ent3 m c main_v2 : S2048x1024.Idx → EReal) (ix2 k (flatPos s f))
      = sup (m ((c : Thread nD τ).loc main_arg0)) (m ((c : Thread nD τ).loc main_arg2)) k s f := fun k => flat_sup m c k s f
  have hA : ∀ k : Fin 2048, (ent3 m c main_arg1 : S2048x2048.Idx → EReal) (ix2 n k)
      = (m ((c : Thread nD τ).loc main_arg1) : S2048x2048.Idx → EReal) (ix2 n k) := fun k => congrFun (ent3_arg1 m c) _
  have hsum : ∀ K : Fin 4, blockSum (ent3 m c main_arg1) (ent3 m c main_v2) n (flatPos s f) K
      = refBlock (m ((c : Thread nD τ).loc main_arg0)) (m ((c : Thread nD τ).loc main_arg1)) (m ((c : Thread nD τ).loc main_arg2)) n s f K :=
    fun K => Finset.sum_congr rfl fun kk _ => congrArg₂ (· * ·) (hA (nbr K kk)) (hS (nbr K kk))
  unfold outAt refAt
  rw [hsum 0, hsum 1, hsum 2, hsum 3, bias_row m c s f, zero_add]

/-! ## The run -/

end Cert.ReferenceIdeal.Hand

namespace Cert.ReferenceIdeal.RValue

open Cert.ReferenceIdeal Cert.ReferenceIdeal.Gen Cert.ReferenceIdeal.Hand
open Idealize.ShloMosaic Idealize.ShloMosaic.TcCoe Idealize.SL.Sem

/-- From any memory with zero counters every weakly fair execution of the reference's @main terminates, nothing
    faulting; its result array ends at the reference arrangement of the graph convolution of the four argument
    arrays, and the argument arrays end as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v8) = Cert.GcnSpec.refArr (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (defs (F := Ideal)) _ _).mono (fun r h c =>
    ⟨(h c _ (mem_unscoped main_v8 (by decide))).trans (end_result m c),
     (h c _ (mem_unscoped main_arg0 (by decide))).trans (end_arg0 m c),
     (h c _ (mem_unscoped main_arg1 (by decide))).trans (end_arg1 m c),
     (h c _ (mem_unscoped main_arg2 (by decide))).trans (end_arg2 m c),
     (h c _ (mem_unscoped main_arg3 (by decide))).trans (end_arg3 m c)⟩)
    (run_all (F := Ideal) m ρ)

end Cert.ReferenceIdeal.RValue

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibBlockSum.lean ====
/-
  A sum over J·n consecutive positions of a function that vanishes outside one block of n positions is the sum over
  that block: with K = j·n + k, the terms with K / n ≠ j are zero and the rest are re-indexed by k.
  Used for products with block-diagonal matrices: only the diagonal block meets the row.
-/
import Mathlib.Algebra.BigOperators.Fin
import Mathlib.Logic.Equiv.Fin.Basic

namespace Cert.Lib.BlockSum

/-- The position j·n + k lies below J·n when j < J and k < n. -/
theorem pos_lt {J n j k : Nat} (hj : j < J) (hk : k < n) : j * n + k < J * n := by
  have h1 : (j + 1) * n ≤ J * n := Nat.mul_le_mul_right n hj
  have h2 : (j + 1) * n = j * n + n := Nat.succ_mul j n
  omega

/-- The sum over all J·n positions of the terms in block j only, re-indexed by the position inside the block. -/
theorem sum_block {M : Type*} [AddCommMonoid M] {N : Nat} (J n : Nat) (hN : N = J * n) (j : Nat) (hj : j < J) (F : Fin N → M) :
    ∑ K : Fin N, (if K.val / n = j then F K else 0)
      = ∑ k : Fin n, F ⟨j * n + k.val, by rw [hN]; exact pos_lt hj k.isLt⟩ := by
  subst hN
  rw [← finProdFinEquiv.sum_comp, Fintype.sum_prod_type]
  have hval : ∀ (a : Fin J) (k : Fin n), (finProdFinEquiv (a, k)).val = a.val * n + k.val := by
    intro a k; simp [finProdFinEquiv, Nat.mul_comm, Nat.add_comm]
  have hdiv : ∀ (a : Fin J) (k : Fin n), (finProdFinEquiv (a, k)).val / n = a.val := by
    intro a k
    rw [hval]
    have hn : 0 < n := Nat.lt_of_le_of_lt (Nat.zero_le _) k.isLt
    rw [Nat.add_comm, Nat.add_mul_div_right _ _ hn, Nat.div_eq_of_lt k.isLt, Nat.zero_add]
  rw [Finset.sum_eq_single (⟨j, hj⟩ : Fin J)]
  · refine Finset.sum_congr rfl fun k _ => ?_
    rw [if_pos (hdiv ⟨j, hj⟩ k)]
    exact congrArg F (Fin.ext (hval ⟨j, hj⟩ k))
  · intro a _ ha
    refine Finset.sum_eq_zero fun k _ => ?_
    rw [if_neg]
    rw [hdiv a k]
    exact fun h => ha (Fin.ext h)
  · intro h; exact absurd (Finset.mem_univ _) h

end Cert.Lib.BlockSum
-- ==== Proof.LibHeadSplit.lean ====
/-
  The pre-activation of the head in its two arrangements, over the extended reals. The kernel takes one product of the
  activations X : [128, 16384] with W : [16384, 128]; the reference clears an accumulator and adds four block products,
  block j taking columns 4096 j … 4096 j + 4095 of X and the same rows of W. Entry (r, k) is the sum over q of
  X[r, q] · W[q, k] on one side and 0 + the four block sums on the other: a sum over 4 · 4096 positions cut into four
  consecutive blocks (`sum_four_blocks`). Only the association and order of a finite sum and `0 + s = s` are used.
-/
import Mathlib.Algebra.BigOperators.Fin
import Mathlib.Logic.Equiv.Fin.Basic

noncomputable section

namespace HeadSplit

/-- A sum over 4·n consecutive positions is the sum of its four blocks of n, in order. -/
theorem sum_four_blocks {M : Type*} [AddCommMonoid M] (n : Nat) (f : Fin (4 * n) → M) :
    ∑ q : Fin (4 * n), f q
      = (((∑ k : Fin n, f ⟨0 * n + k.val, by have := k.isLt; omega⟩) + ∑ k : Fin n, f ⟨1 * n + k.val, by have := k.isLt; omega⟩)
          + ∑ k : Fin n, f ⟨2 * n + k.val, by have := k.isLt; omega⟩) + ∑ k : Fin n, f ⟨3 * n + k.val, by have := k.isLt; omega⟩ := by
  rw [← finProdFinEquiv.sum_comp, Fintype.sum_prod_type, Fin.sum_univ_four]
  have hv : ∀ (a : Fin 4) (k : Fin n), (finProdFinEquiv (a, k)).val = a.val * n + k.val := by
    intro a k; simp [finProdFinEquiv, Nat.mul_comm, Nat.add_comm]
  have e : ∀ (a : Fin 4) (h : ∀ k : Fin n, a.val * n + k.val < 4 * n),
      (∑ k : Fin n, f (finProdFinEquiv (a, k))) = ∑ k : Fin n, f ⟨a.val * n + k.val, h k⟩ :=
    fun a h => Finset.sum_congr rfl fun k _ => congrArg f (Fin.ext (hv a k))
  rw [e 0 (fun k => by have := k.isLt; simp; omega), e 1 (fun k => by have := k.isLt; simp; omega),
    e 2 (fun k => by have := k.isLt; simp; omega), e 3 (fun k => by have := k.isLt; simp; omega)]
  rfl

end HeadSplit

end
-- ==== Proof.GcnLaw.lean ====
/-
  The two arrangements of the graph convolution agree when the node features, the adjacency matrix and the
  weights are real numbers.

  In the kernel's arrangement the factor δ(c / 128, s) of the block-diagonal matrix kills every position c of the
  flattened (slot, feature) axis outside the block of slot s, so the sum over the 1024 positions is the sum over the
  128 features g of that block:
      Σ_c t[n, c] · (δ(c / 128, s) · w[c % 128, f])  =  Σ_g (Σ_k adj[n, k] · x[k, s, g]) · w[g, f].
  With real factors the double sum may be taken in the other order,
      Σ_g (Σ_k adj[n, k] · x[k, s, g]) · w[g, f]  =  Σ_k adj[n, k] · (Σ_g x[k, s, g] · w[g, f]),
  and a sum over 2048 = 4 · 512 neighbours is the sum of its four consecutive blocks of 512, in order. The bias b[f]
  is added on both sides and may be any extended real.
-/
import proofs.«121691_g2000406713105512_pallasbulk_660_2_alg».proof.Proof.Spec
import proofs.«121691_g2000406713105512_pallasbulk_660_2_alg».proof.Proof.LibRealSum
import proofs.«121691_g2000406713105512_pallasbulk_660_2_alg».proof.Proof.LibBlockSum
import proofs.«121691_g2000406713105512_pallasbulk_660_2_alg».proof.Proof.LibHeadSplit

noncomputable section

open scoped BigOperators

namespace Cert.GcnLaw

open Idealize.ShloMosaic Idealize.ShloMosaic.ValueIdx
open Cert.GcnSpec Cert.LibRealSum

/-- Position 128·s + g of the flattened (slot, feature) axis: feature g of slot s. -/
def pos (s : Fin 8) (g : Fin 128) : Fin 1024 := ⟨s.val * 128 + g.val, by have := s.isLt; have := g.isLt; omega⟩

/-- Position 128·s + g lies in slot s. -/
theorem slotOf_pos (s : Fin 8) (g : Fin 128) : slotOf (pos s g) = s := by
  apply Fin.ext
  show (s.val * 128 + g.val) / 128 = s.val
  have := g.isLt
  omega

/-- Position 128·s + g is feature g. -/
theorem featOf_pos (s : Fin 8) (g : Fin 128) : featOf (pos s g) = g := by
  apply Fin.ext
  show (s.val * 128 + g.val) % 128 = g.val
  have := g.isLt
  omega

/-- A term of the product with the block-diagonal matrix: outside the block of slot s it is y · (0 · z) = 0, inside
    it is y · (1 · z) = y · z. -/
theorem delta_term (y z : EReal) (c : Fin 1024) (s : Fin 8) :
    y * (delta (slotOf c) s * z) = if c.val / 128 = s.val then y * z else 0 := by
  unfold delta
  by_cases h : c.val / 128 = s.val
  · have hs : slotOf c = s := Fin.ext h
    rw [if_pos h, if_pos hs, one_mul]
  · have hs : ¬ slotOf c = s := fun e => h (congrArg Fin.val e)
    rw [if_neg h, if_neg hs, zero_mul, mul_zero]

variable (x : FVec Ideal SX .f32) (adj : FVec Ideal SA .f32) (w : FVec Ideal SW .f32) (b : FVec Ideal SB .f32)

/-- The aggregated features at position 128·s + g are those of slot s, feature g. -/
theorem agg_pos (n : Fin 2048) (s : Fin 8) (g : Fin 128) :
    agg x adj n (pos s g) = ∑ k : Fin 2048, adj (ix2 n k) * x (ix3 k s g) := by
  unfold agg
  rw [slotOf_pos, featOf_pos]

/-- Only the diagonal block of slot s meets the row: the sum over the 1024 positions is the sum over the 128
    features of slot s. -/
theorem ker_block (n : Fin 2048) (s : Fin 8) (f : Fin 128) :
    ∑ c : Fin 1024, agg x adj n c * (delta (slotOf c) s * w (ix2 (featOf c) f))
      = ∑ g : Fin 128, (∑ k : Fin 2048, adj (ix2 n k) * x (ix3 k s g)) * w (ix2 g f) := by
  have h := Cert.Lib.BlockSum.sum_block (M := EReal) (N := 1024) 8 128 (by norm_num) s.val s.isLt
    (fun c : Fin 1024 => agg x adj n c * w (ix2 (featOf c) f))
  rw [Finset.sum_congr rfl (fun c _ => delta_term (agg x adj n c) (w (ix2 (featOf c) f)) c s)]
  refine h.trans (Finset.sum_congr rfl fun g _ => ?_)
  show agg x adj n (pos s g) * w (ix2 (featOf (pos s g)) f) = _
  rw [featOf_pos, agg_pos]

/-- With real factors the double sum over features and neighbours may be taken neighbours first. -/
theorem sum_swap (hx : ∀ i, IsReal (x i)) (hadj : ∀ i, IsReal (adj i)) (hw : ∀ i, IsReal (w i))
    (n : Fin 2048) (s : Fin 8) (f : Fin 128) :
    ∑ g : Fin 128, (∑ k : Fin 2048, adj (ix2 n k) * x (ix3 k s g)) * w (ix2 g f)
      = ∑ k : Fin 2048, adj (ix2 n k) * sup x w k s f := by
  have h := sum_mul_sum_swap (Finset.univ : Finset (Fin 2048)) (fun (k : Fin 2048) (g : Fin 128) => x (ix3 k s g))
    (fun k : Fin 2048 => adj (ix2 n k)) (fun g : Fin 128 => w (ix2 g f))
    (fun k g => hx (ix3 k s g)) (fun k => hadj (ix2 n k)) (fun g => hw (ix2 g f))
  calc ∑ g : Fin 128, (∑ k : Fin 2048, adj (ix2 n k) * x (ix3 k s g)) * w (ix2 g f)
      = ∑ g : Fin 128, (∑ k : Fin 2048, x (ix3 k s g) * adj (ix2 n k)) * w (ix2 g f) :=
        Finset.sum_congr rfl fun g _ =>
          congrArg (fun y : EReal => y * w (ix2 g f)) (Finset.sum_congr rfl fun k _ => mul_comm _ _)
    _ = ∑ k : Fin 2048, (∑ g : Fin 128, x (ix3 k s g) * w (ix2 g f)) * adj (ix2 n k) := h.symm
    _ = ∑ k : Fin 2048, adj (ix2 n k) * sup x w k s f := Finset.sum_congr rfl fun k _ => mul_comm _ _

/-- The sum over the 2048 neighbours is the sum of its four consecutive blocks of 512, in order. -/
theorem nbr_blocks (n : Fin 2048) (s : Fin 8) (f : Fin 128) :
    ∑ k : Fin 2048, adj (ix2 n k) * sup x w k s f
      = ((refBlock x adj w n s f 0 + refBlock x adj w n s f 1) + refBlock x adj w n s f 2) + refBlock x adj w n s f 3 :=
  HeadSplit.sum_four_blocks (M := EReal) 512 (fun k : Fin 2048 => adj (ix2 n k) * sup x w k s f)

/-- At every node, slot and feature the kernel's arrangement is the reference's. -/
theorem kerAt_eq_refAt (x : FVec Ideal SX .f32) (adj : FVec Ideal SA .f32) (w : FVec Ideal SW .f32) (b : FVec Ideal SB .f32)
    (hx : ∀ i, IsReal (x i)) (hadj : ∀ i, IsReal (adj i)) (hw : ∀ i, IsReal (w i)) (n : Fin 2048) (s : Fin 8) (f : Fin 128) :
    kerAt x adj w b n s f = refAt x adj w b n s f := by
  unfold kerAt refAt
  rw [ker_block, sum_swap x adj w hx hadj hw, nbr_blocks]

/-- The two result arrays are equal. -/
theorem kerArr_eq_refArr (x : FVec Ideal SX .f32) (adj : FVec Ideal SA .f32) (w : FVec Ideal SW .f32) (b : FVec Ideal SB .f32)
    (hx : ∀ i, IsReal (x i)) (hadj : ∀ i, IsReal (adj i)) (hw : ∀ i, IsReal (w i)) : kerArr x adj w b = refArr x adj w b :=
  funext fun i => kerAt_eq_refAt x adj w b hx hadj hw (i 0) (i 1) (i 2)

end Cert.GcnLaw

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«121691_g2000406713105512_pallasbulk_660_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.GcnFinite.lean ====
/-
  The precondition makes the node features, the adjacency matrix and the weights arrays of real numbers.

  The precondition's word is the conjunction of four tests, one per argument array, each the conjunction over the
  whole array of the comparisons |entry| < +∞ (a reduction by "and" from the constant 1 down to a single word). A
  conjunction of one-bit words is 1 only if each of them is, and a whole-array conjunction that is 1 makes every entry
  a real number. (The fourth test, on the bias, is not needed: the bias is only added at the end on both sides.)
-/
import proofs.«121691_g2000406713105512_pallasbulk_660_2_alg».proof.Defs
import proofs.«121691_g2000406713105512_pallasbulk_660_2_alg».proof.Proof.LibFiniteAll

noncomputable section

namespace Cert.GcnFinite

open Idealize.ShloMosaic Idealize.SL.Sem

/-- Under the precondition every entry of the first three argument arrays is a real number. -/
theorem real_of_pre [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.LibRealSum.IsReal (m ((c.tc : Thread Cert.KernelIdeal.nD Cert.KernelIdeal.τ).loc Cert.KernelIdeal.main_arg0) i))
    ∧ (∀ i, Cert.LibRealSum.IsReal (m ((c.tc : Thread Cert.KernelIdeal.nD Cert.KernelIdeal.τ).loc Cert.KernelIdeal.main_arg1) i))
    ∧ (∀ i, Cert.LibRealSum.IsReal (m ((c.tc : Thread Cert.KernelIdeal.nD Cert.KernelIdeal.τ).loc Cert.KernelIdeal.main_arg2) i)) := by
  have e := congrFun (h c) ValueIdx.ix0
  dsimp only [Cert.Pre_finite_inputs.fn, Cert.Pre_finite_inputs.fn_part1] at e
  obtain ⟨e012, _⟩ := IntOp.andi_eq_one.1 e
  obtain ⟨e01, e2⟩ := IntOp.andi_eq_one.1 e012
  obtain ⟨e0, e1⟩ := IntOp.andi_eq_one.1 e01
  exact ⟨Cert.Lib.FiniteAll.all_real _ _ _ _ _ e0, Cert.Lib.FiniteAll.all_real _ _ _ _ _ e1,
    Cert.Lib.FiniteAll.all_real _ _ _ _ _ e2⟩

end Cert.GcnFinite

end
-- ==== Proof.lean ====
/-
  A graph convolution out = adj · (x · W) + bias over x : [2048, 8, 128], adj : [2048, 2048], W : [128, 128], bias : [128],
  computed two ways, and the claim that the two agree over the extended reals when the inputs are finite.

  The kernel flattens (slot, feature) to one axis of 1024 positions and computes, in one pass over eight blocks of 256
  rows, t = adj · x_flat and then t · (I₈ ⊗ W) + the bias repeated per slot: multiplying by the block-diagonal matrix
  I₈ ⊗ W applies W inside each slot. The reference first computes the support x2d · W (32 blocks of 512 rows), then
  adj · support_flat + bias with the neighbour sum cut into four blocks of 512, accumulated in order.

  Entry (n, s, f) of the kernel's result is Σ_c (Σ_k adj[n,k] · x[k, c/128, c%128]) · (δ(c/128, s) · W[c%128, f]) + bias[f];
  the reference's is the four block sums of Σ_k adj[n,k] · (Σ_g x[k,s,g] · W[g,f]) added in order, + bias[f]. The Kronecker
  δ keeps the 128 positions of slot s; exchanging the two sums needs distributivity, which on the extended reals holds
  when every factor is a real number — this is where the precondition (all inputs finite) is used; cutting the sum over
  2048 neighbours into its four blocks needs only associativity.

  Each program's result is read off its run: the kernel's from its one region between host operations, the
  reference's from its two regions, the second of which carries its accumulator across the four points of an output
  block. The idealization rewrote nothing in the kernel, so the kernel and its idealized text are the same program.
-/
import proofs.«121691_g2000406713105512_pallasbulk_660_2_alg».proof.Defs
import proofs.«121691_g2000406713105512_pallasbulk_660_2_alg».proof.Proof.Gen.Kernel
import proofs.«121691_g2000406713105512_pallasbulk_660_2_alg».proof.Proof.Gen.Kernel.Frame
import proofs.«121691_g2000406713105512_pallasbulk_660_2_alg».proof.Proof.Gen.KernelIdeal
import proofs.«121691_g2000406713105512_pallasbulk_660_2_alg».proof.Proof.Gen.KernelIdeal.Frame
import proofs.«121691_g2000406713105512_pallasbulk_660_2_alg».proof.Proof.Gen.ReferenceIdeal
import proofs.«121691_g2000406713105512_pallasbulk_660_2_alg».proof.Proof.Gen.Pre_finite_inputs
import proofs.«121691_g2000406713105512_pallasbulk_660_2_alg».proof.Proof.KerValue
import proofs.«121691_g2000406713105512_pallasbulk_660_2_alg».proof.Proof.RefValue
import proofs.«121691_g2000406713105512_pallasbulk_660_2_alg».proof.Proof.GcnLaw
import proofs.«121691_g2000406713105512_pallasbulk_660_2_alg».proof.Proof.GcnFinite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.RValue.run m ρ)

/-- The idealization rewrote no operation. -/
theorem preserves : Cert.preserves_Kernel_KernelIdeal := trivial

/-- From memories agreeing on finite arguments both programs run, and both results are the graph convolution: the
    kernel's in its arrangement, the reference's in its own, equal entry by entry because every factor is real. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun r h c => ⟨(h c).1.trans ?_, (h c).2⟩)
    (Cert.ReferenceIdeal.RValue.run m' ρ')
  rw [(hagree c).1, (hagree c).2.1, (hagree c).2.2.1, (hagree c).2.2.2]
  obtain ⟨h0, h1, h2⟩ := Cert.GcnFinite.real_of_pre m hpre c
  exact (Cert.GcnLaw.kerArr_eq_refArr _ _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
